-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S1024x1024 : Shape := ⟨2, ![1024, 1024]⟩
abbrev S1024 : Shape := ⟨1, ![1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x1024x1024 .f32) (main_arg1 : FVec F S4x1024x1024 .f32) (main_arg2 : FVec F S4x1024x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024x1024 .f32 := Host.absf main_arg2
  let main_cst_2 : FVec F S_ .f32 := constant S_ .f32 0x7F800000#32
  let main_v10 : FVec F S4x1024x1024 .f32 := broadcastInDim S4x1024x1024 ![] bcast_S_S4x1024x1024 main_cst_2
  let main_v11 : IVec S4x1024x1024 1 := cmpf .olt main_v9 main_v10
  let main_c_3 : IVec S_ 1 := constantI S_ 1 1#1
  let main_v12 : IVec S_ 1 := (fun x v => Host.reduce IntOp.andi x v reducesTo_S4x1024x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x1024x1024 : Shape := ⟨3, ![4, 1024, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S4x16x1024x1024 : Shape := ⟨4, ![4, 16, 1024, 1024]⟩
abbrev S1x1024x128 : Shape := ⟨3, ![1, 1024, 128]⟩
abbrev S1x2x1024x1024 : Shape := ⟨4, ![1, 2, 1024, 1024]⟩
abbrev S1024x128 : Shape := ⟨2, ![1024, 128]⟩
abbrev S1024x64 : Shape := ⟨2, ![1024, 64]⟩
abbrev S1024x1 : Shape := ⟨2, ![1024, 1]⟩
abbrev S1x1x1024x1024 : Shape := ⟨4, ![1, 1, 1024, 1024]⟩

abbrev nBuf : Space → Nat
  | .hbm => 37
  | .vmem => 34
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S4096x1024, .f32⟩
  | .hbm, ⟨18, _⟩ => ⟨S4x1024x1024, .f32⟩
  | .hbm, ⟨19, _⟩ => ⟨S1024x1024, .f32⟩
  | .hbm, ⟨20, _⟩ => ⟨S1024x1024, .bf16⟩
  | .hbm, ⟨21, _⟩ => ⟨S1x1024, .f32⟩
  | .hbm, ⟨22, _⟩ => ⟨S4096x1024, .f32⟩
  | .hbm, ⟨23, _⟩ => ⟨S4x1024x1024, .f32⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S4096x1024, .f32⟩
  | .hbm, ⟨28, _⟩ => ⟨S4x1024x1024, .f32⟩
  | .hbm, ⟨29, _⟩ => ⟨S4x1024x1024, .f32⟩
  | .hbm, ⟨30, _⟩ => ⟨S4x16x1024x1024, .f32⟩
  | .hbm, ⟨31, _⟩ => ⟨S4096x1024, .f32⟩
  | .hbm, ⟨32, _⟩ => ⟨S1024x1024, .f32⟩
  | .hbm, ⟨33, _⟩ => ⟨S1024x1024, .bf16⟩
  | .hbm, ⟨34, _⟩ => ⟨S1x1024, .f32⟩
  | .hbm, ⟨35, _⟩ => ⟨S4096x1024, .f32⟩
  | .hbm, ⟨36, _⟩ => ⟨S4x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1x1024x128, .f32⟩
  | .local _ .vmem, ⟨19, _⟩ => ⟨S1x1024x128, .f32⟩
  | .local _ .vmem, ⟨20, _⟩ => ⟨S1x1024x128, .f32⟩
  | .local _ .vmem, ⟨21, _⟩ => ⟨S1x1024x128, .f32⟩
  | .local _ .vmem, ⟨22, _⟩ => ⟨S1x1024x128, .f32⟩
  | .local _ .vmem, ⟨23, _⟩ => ⟨S1x1024x128, .f32⟩
  | .local _ .vmem, ⟨24, _⟩ => ⟨S1x1024x128, .f32⟩
  | .local _ .vmem, ⟨25, _⟩ => ⟨S1x1024x128, .f32⟩
  | .local _ .vmem, ⟨26, _⟩ => ⟨S1x2x1024x1024, .f32⟩
  | .local _ .vmem, ⟨27, _⟩ => ⟨S1x2x1024x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .bf16⟩
  | .local _ .vmem, ⟨31, _⟩ => ⟨S1x1024, .f32⟩
  | .local _ .vmem, ⟨32, _⟩ => ⟨S1024x1024, .f32⟩
  | .local _ .vmem, ⟨33, _⟩ => ⟨S1024x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x2x1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S4x1024x1024_S4096x1024 : S4x1024x1024.ShapeCasts S4096x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x1024_S4x1024x1024 : S4096x1024.ShapeCasts S4x1024x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S1024x128_o0_0_S1024x64 : S1024x128.Slices ![0, 0] S1024x64
  reduces_S1024x1024_S1024 : S1024x1024.Reduces [1] S1024
  shapeCasts_S1024_S1024x1 : S1024.ShapeCasts S1024x1
  broadcasts_S1024x1_S1024x1024 : S1024x1.Broadcasts S1024x1024
  inb_S1x2x1024x1024_S1x1x1024x1024_0_0_0_0 : ∀ a, (![0, 0, 0, 0] : Fin 4 → Nat) a + S1x1x1024x1024.size a ≤ S1x2x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  slices_S1024x128_o0_64_S1024x64 : S1024x128.Slices ![0, 64] S1024x64
  inb_S1x2x1024x1024_S1x1x1024x1024_0_1_0_0 : ∀ a, (![0, 1, 0, 0] : Fin 4 → Nat) a + S1x1x1024x1024.size a ≤ S1x2x1024x1024.size a
  concatenates_S1024x64_S1024x64_S1024x128_d1 : Shape.Concatenates [S1024x64, S1024x64] S1024x128 1
  shapeCasts_S1024x128_S1x1024x128 : S1024x128.ShapeCasts S1x1024x128
  dot_S1024x1024_S1024x1024_S1024x1024_1_0_0_1_n_n_wf : DotDims.WF S1024x1024 S1024x1024 S1024x1024 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x128.size a ≤ S4x1024x1024.size a
  hwx3_0 : ∀ i : grid3.Coords, EltTy.bits .f32 = 32 ∨ (Rect.block (s := S4x1024x1024) S1x1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1024x128.size a ≤ S4x1024x1024.size a
  hwx3_1 : ∀ i : grid3.Coords, EltTy.bits .f32 = 32 ∨ (Rect.block (s := S4x1024x1024) S1x1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x128.size a ≤ S4x1024x1024.size a
  hwx3_2 : ∀ i : grid3.Coords, EltTy.bits .f32 = 32 ∨ (Rect.block (s := S4x1024x1024) S1x1024x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x128.size a ≤ S4x1024x1024.size a
  hwx3_3 : ∀ i : grid3.Coords, EltTy.bits .f32 = 32 ∨ (Rect.block (s := S4x1024x1024) S1x1024x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x2x1024x1024.size a ≤ S4x16x1024x1024.size a
  hwx3_4 : ∀ i : grid3.Coords, EltTy.bits .f32 = 32 ∨ (Rect.block (s := S4x16x1024x1024) S1x2x1024x1024.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x1024.size a
  hwx4_0 : ∀ i : grid4.Coords, EltTy.bits .f32 = 32 ∨ (Rect.block (s := S4096x1024) S1024x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x1024.size a
  hwx4_3 : ∀ i : grid4.Coords, EltTy.bits .f32 = 32 ∨ (Rect.block (s := S4096x1024) S1024x1024.size (cc4_transform_3 i) (hinb4_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v7) S1x1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S1x1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18_0) S1x1024x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v18_1) S1x2x1024x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v19) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v22) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x1024x1024 : Shape := ⟨3, ![4, 1024, 1024]⟩
abbrev S1024x1024 : Shape := ⟨2, ![1024, 1024]⟩
abbrev S1024 : Shape := ⟨1, ![1024]⟩
abbrev S1x1x1024 : Shape := ⟨3, ![1, 1, 1024]⟩
abbrev S4x1024x16x64 : Shape := ⟨4, ![4, 1024, 16, 64]⟩
abbrev S4x16x1024x64 : Shape := ⟨4, ![4, 16, 1024, 64]⟩
abbrev S4x16x1024x1024 : Shape := ⟨4, ![4, 16, 1024, 1024]⟩
abbrev S_ : Shape := ⟨0, ![]⟩
abbrev S4x16x1024 : Shape := ⟨3, ![4, 16, 1024]⟩
abbrev S4x16x1024x1 : Shape := ⟨4, ![4, 16, 1024, 1]⟩

abbrev nBuf : Space → Nat
  | .hbm => 58
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S4x1024x1024, .f32⟩
  | .hbm, ⟨13, _⟩ => ⟨S1x1x1024, .f32⟩
  | .hbm, ⟨14, _⟩ => ⟨S4x1024x1024, .f32⟩
  | .hbm, ⟨15, _⟩ => ⟨S4x1024x1024, .f32⟩
  | .hbm, ⟨16, _⟩ => ⟨S4x1024x16x64, .f32⟩
  | .hbm, ⟨17, _⟩ => ⟨S4x16x1024x64, .f32⟩
  | .hbm, ⟨18, _⟩ => ⟨S1024x1024, .f32⟩
  | .hbm, ⟨19, _⟩ => ⟨S4x1024x1024, .f32⟩
  | .hbm, ⟨20, _⟩ => ⟨S1x1x1024, .f32⟩
  | .hbm, ⟨21, _⟩ => ⟨S4x1024x1024, .f32⟩
  | .hbm, ⟨22, _⟩ => ⟨S4x1024x1024, .f32⟩
  | .hbm, ⟨23, _⟩ => ⟨S4x1024x16x64, .f32⟩
  | .hbm, ⟨24, _⟩ => ⟨S4x16x1024x64, .f32⟩
  | .hbm, ⟨25, _⟩ => ⟨S1024x1024, .f32⟩
  | .hbm, ⟨26, _⟩ => ⟨S4x1024x1024, .f32⟩
  | .hbm, ⟨27, _⟩ => ⟨S1x1x1024, .f32⟩
  | .hbm, ⟨28, _⟩ => ⟨S4x1024x1024, .f32⟩
  | .hbm, ⟨29, _⟩ => ⟨S4x1024x1024, .f32⟩
  | .hbm, ⟨30, _⟩ => ⟨S4x1024x16x64, .f32⟩
  | .hbm, ⟨31, _⟩ => ⟨S4x16x1024x64, .f32⟩
  | .hbm, ⟨32, _⟩ => ⟨S4x16x1024x1024, .f32⟩
  | .hbm, ⟨33, _⟩ => ⟨S_, .f32⟩
  | .hbm, ⟨34, _⟩ => ⟨S4x16x1024x1024, .f32⟩
  | .hbm, ⟨35, _⟩ => ⟨S4x16x1024x1024, .f32⟩
  | .hbm, ⟨36, _⟩ => ⟨S_, .f32⟩
  | .hbm, ⟨37, _⟩ => ⟨S4x16x1024, .f32⟩
  | .hbm, ⟨38, _⟩ => ⟨S_, .f32⟩
  | .hbm, ⟨39, _⟩ => ⟨S4x16x1024, .f32⟩
  | .hbm, ⟨40, _⟩ => ⟨S4x16x1024, .f32⟩
  | .hbm, ⟨41, _⟩ => ⟨S4x16x1024x1, .f32⟩
  | .hbm, ⟨42, _⟩ => ⟨S4x16x1024x1024, .f32⟩
  | .hbm, ⟨43, _⟩ => ⟨S4x16x1024x1024, .f32⟩
  | .hbm, ⟨44, _⟩ => ⟨S4x16x1024x1024, .f32⟩
  | .hbm, ⟨45, _⟩ => ⟨S_, .f32⟩
  | .hbm, ⟨46, _⟩ => ⟨S4x16x1024, .f32⟩
  | .hbm, ⟨47, _⟩ => ⟨S4x16x1024x1, .f32⟩
  | .hbm, ⟨48, _⟩ => ⟨S4x16x1024x1024, .f32⟩
  | .hbm, ⟨49, _⟩ => ⟨S4x16x1024x1024, .f32⟩
  | .hbm, ⟨50, _⟩ => ⟨S4x16x1024x64, .f32⟩
  | .hbm, ⟨51, _⟩ => ⟨S4x1024x16x64, .f32⟩
  | .hbm, ⟨52, _⟩ => ⟨S4x1024x1024, .f32⟩
  | .hbm, ⟨53, _⟩ => ⟨S1024x1024, .f32⟩
  | .hbm, ⟨54, _⟩ => ⟨S4x1024x1024, .f32⟩
  | .hbm, ⟨55, _⟩ => ⟨S1x1x1024, .f32⟩
  | .hbm, ⟨56, _⟩ => ⟨S4x1024x1024, .f32⟩
  | .hbm, ⟨57, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  bcast_S_S4x16x1024x1024 : S_.BroadcastsInDim S4x16x1024x1024 (![] : Fin 0 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  dot_S4x1024x1024_S1024x1024_S4x1024x1024_2_0_01_1_n_n_wf : DotDims.WF S4x1024x1024 S1024x1024 S4x1024x1024 [2] [0] [0, 1] [1] [] []
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x1024x1024_S1024x1024_S4x1024x1024_2_0_01_1_n_n : DotDims S4x1024x1024 S1024x1024 S4x1024x1024 where
  lhsContracting := [2]
  rhsContracting := [0]
  lhsNonContracting := [0, 1]
  rhsNonContracting := [1]
  lhsBatch := []
  rhsBatch := []
  wf := dot_S4x1024x1024_S1024x1024_S4x1024x1024_2_0_01_1_n_n_wf
def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.Spec.lean ====
/-
  The mathematics of multi-head attention, as plain functions on the extended reals, with every index
  spelt in coordinates. Nothing here mentions a program.

  * a linear layer: y[b,s,f] = (Σ_e x[b,s,e] · W[f,e]) + bias[f];
  * head h owns the 64 columns 64h … 64h+63 of the projected arrays;
  * the score of query row q against key row k in head h is (Σ_d Q[b,q,64h+d] · K[b,k,64h+d]) · 1/8;
  * a softmax row: exp (s k − max s) divided by the row's sum of those exponentials, the maximum taken
    as the fold of max from −∞ (the reading both programs' reductions have);
  * the context: ctx[b,q,64h+d] = Σ_k w[b,h,q,k] · V[b,k,64h+d].
-/
import Idealize.ShloMosaic.PureOps.Ideal
import Idealize.ShloMosaic.Lib.ValueIdx

noncomputable section

namespace Cert.Attn

open Idealize.ShloMosaic Idealize.ShloMosaic.ValueIdx
open scoped BigOperators

/-- [4, 1024, 1024]: batch, sequence, embedding. -/
abbrev A3 : Shape := ⟨3, ![4, 1024, 1024]⟩
/-- [1024, 1024]: a weight matrix, output feature first. -/
abbrev M2 : Shape := ⟨2, ![1024, 1024]⟩
/-- [1024]: a bias. -/
abbrev B1 : Shape := ⟨1, ![1024]⟩
/-- [4, 16, 1024, 1024]: batch, head, query row, key row. -/
abbrev W4 : Shape := ⟨4, ![4, 16, 1024, 1024]⟩

/-- Column d of head h among the 1024 embedding columns. -/
def hd (h : Fin 16) (d : Fin 64) : Fin 1024 := ⟨h.val * 64 + d.val, by have := h.isLt; have := d.isLt; omega⟩

/-- Column d of the second-or-first head (hh) among the 128 columns of a pair of heads. -/
def col (hh : Fin 2) (d : Fin 64) : Fin 128 := ⟨hh.val * 64 + d.val, by have := hh.isLt; have := d.isLt; omega⟩

/-- The scale 1/8 as the f32 word both programs carry. -/
abbrev scale : EReal := Ideal.ofBits .f32 0x3E000000#32
/-- −∞ as the f32 word both programs start their maximum from. -/
abbrev negInf : EReal := Ideal.ofBits .f32 0xFF800000#32

/-- One entry of a linear layer. -/
def projAt (x : A3.Idx → EReal) (W : M2.Idx → EReal) (bias : B1.Idx → EReal) (b : Fin 4) (s f : Fin 1024) : EReal :=
  (∑ e : Fin 1024, x (ix3 b s e) * W (ix2 f e)) + bias (ix1 f)

/-- A linear layer on the whole array. -/
def proj (x : A3.Idx → EReal) (W : M2.Idx → EReal) (bias : B1.Idx → EReal) : A3.Idx → EReal :=
  fun i => projAt x W bias (i 0) (i 1) (i 2)

/-- The maximum of a row, folded from −∞. -/
def rowMax (s : Fin 1024 → EReal) : EReal := (Finset.univ : Finset (Fin 1024)).fold max negInf s

/-- One entry of a row's softmax. -/
def softmaxRow (s : Fin 1024 → EReal) (k : Fin 1024) : EReal :=
  Ideal.div (Ideal.exp (s k - rowMax s)) (∑ k' : Fin 1024, Ideal.exp (s k' - rowMax s))

/-- The scaled score of query row q against key row k in head h. -/
def scoreAt (Q K : A3.Idx → EReal) (b : Fin 4) (h : Fin 16) (q k : Fin 1024) : EReal :=
  (∑ d : Fin 64, Q (ix3 b q (hd h d)) * K (ix3 b k (hd h d))) * scale

/-- The attention weights. -/
def weights (Q K : A3.Idx → EReal) : W4.Idx → EReal :=
  fun i => softmaxRow (fun k => scoreAt Q K (i 0) (i 1) (i 2) k) (i 3)

/-- One entry of the context: head h, column d, query row q. -/
def ctxAt (w : W4.Idx → EReal) (V : A3.Idx → EReal) (b : Fin 4) (q : Fin 1024) (h : Fin 16) (d : Fin 64) : EReal :=
  ∑ k : Fin 1024, w (ix4 b h q k) * V (ix3 b k (hd h d))

/-- The context on the whole array: column c belongs to head c / 64, at its column c % 64. -/
def context (w : W4.Idx → EReal) (V : A3.Idx → EReal) : A3.Idx → EReal :=
  fun i => ctxAt w V (i 0) (i 1) ⟨(i 2).val / 64, by have : (i 2).val < 1024 := (i 2).isLt; omega⟩
    ⟨(i 2).val % 64, Nat.mod_lt _ (by decide)⟩

/-- The attention weights of the whole layer, from the eleven arguments' first eight. -/
def attnWeights (xq xk : A3.Idx → EReal) (Wq : M2.Idx → EReal) (bq : B1.Idx → EReal) (Wk : M2.Idx → EReal) (bk : B1.Idx → EReal) :
    W4.Idx → EReal :=
  weights (proj xq Wq bq) (proj xk Wk bk)

/-- The layer's output. -/
def attnOut (xq xk xv : A3.Idx → EReal) (Wq : M2.Idx → EReal) (bq : B1.Idx → EReal) (Wk : M2.Idx → EReal) (bk : B1.Idx → EReal)
    (Wv : M2.Idx → EReal) (bv : B1.Idx → EReal) (Wo : M2.Idx → EReal) (bo : B1.Idx → EReal) : A3.Idx → EReal :=
  proj (context (attnWeights xq xk Wq bq Wk bk) (proj xv Wv bv)) Wo bo

end Cert.Attn

end
-- ==== Proof.RefSide.lean ====
/-
  The reference program read as the mathematics of multi-head attention: each stage of the reference, read at an
  index through the generated one-operation lemmas, is the corresponding function of the specification.
-/
import proofs.«152439_j69595650064719_2_alg».proof.Proof.Spec
import proofs.«152439_j69595650064719_2_alg».proof.Proof.Gen.ReferenceIdeal.Read

noncomputable section

namespace Cert.RefSide

open Cert.ReferenceIdeal Cert.ReferenceIdeal.Gen Idealize.ShloMosaic Idealize.ShloMosaic.ValueIdx
open scoped BigOperators

/-! ## The linear layers -/

/-- A linear layer of the reference: the matrix is read transposed by the contraction, the bias through its two
    broadcasts, so each entry is the sum over the embedding axis plus the bias of its column. -/
theorem v4_eq (x0 : (⟨S4x1024x1024, .f32⟩ : BufTy).Contents (Elt Ideal))
    (x3 : (⟨S1024x1024, .f32⟩ : BufTy).Contents (Elt Ideal))
    (x4 : (⟨S1024, .f32⟩ : BufTy).Contents (Elt Ideal)) :
    Read.val_main_v4 (F := Ideal) x0 x3 x4 = Attn.proj x0 x3 x4 := by
  funext i
  rw [Read.val_main_v4_apply, Read.val_main_v1_apply, Read.val_main_v3_apply, Read.val_main_v2_apply]
  show (∑ k : Fin 1024, x0 (Read.lidx_main_v1 i k) * Read.val_main_v0 (F := Ideal) x3 (Read.ridx_main_v1 i k))
      + x4 (Read.idx_main_v2 (Read.idx_main_v3 i))
    = (∑ e : Fin 1024, x0 (ix3 (i 0) (i 1) e) * x3 (ix2 (i 2) e)) + x4 (ix1 (i 2))
  have hb : Read.idx_main_v2 (Read.idx_main_v3 i) = ix1 (i 2) := by
    funext a; match a with | ⟨0, _⟩ => rfl
  rw [hb]
  refine congrArg (· + x4 (ix1 (i 2))) (Finset.sum_congr rfl fun k _ => ?_)
  rw [Read.val_main_v0_apply]
  have hl : Read.lidx_main_v1 i k = ix3 (i 0) (i 1) k := by
    funext a; match a with | ⟨0, _⟩ => rfl | ⟨1, _⟩ => rfl | ⟨2, _⟩ => rfl
  have hr : Read.idx_main_v0 (Read.ridx_main_v1 i k) = ix2 (i 2) k := by
    funext a; match a with | ⟨0, _⟩ => rfl | ⟨1, _⟩ => rfl
  rw [hl, hr]
  rfl

/-- The key projection, by the same reading. -/
theorem v11_eq (x1 : (⟨S4x1024x1024, .f32⟩ : BufTy).Contents (Elt Ideal))
    (x5 : (⟨S1024x1024, .f32⟩ : BufTy).Contents (Elt Ideal))
    (x6 : (⟨S1024, .f32⟩ : BufTy).Contents (Elt Ideal)) :
    Read.val_main_v11 (F := Ideal) x1 x5 x6 = Attn.proj x1 x5 x6 := by
  funext i
  rw [Read.val_main_v11_apply, Read.val_main_v8_apply, Read.val_main_v10_apply, Read.val_main_v9_apply]
  show (∑ k : Fin 1024, x1 (Read.lidx_main_v8 i k) * Read.val_main_v7 (F := Ideal) x5 (Read.ridx_main_v8 i k))
      + x6 (Read.idx_main_v9 (Read.idx_main_v10 i))
    = (∑ e : Fin 1024, x1 (ix3 (i 0) (i 1) e) * x5 (ix2 (i 2) e)) + x6 (ix1 (i 2))
  have hb : Read.idx_main_v9 (Read.idx_main_v10 i) = ix1 (i 2) := by
    funext a; match a with | ⟨0, _⟩ => rfl
  rw [hb]
  refine congrArg (· + x6 (ix1 (i 2))) (Finset.sum_congr rfl fun k _ => ?_)
  rw [Read.val_main_v7_apply]
  have hl : Read.lidx_main_v8 i k = ix3 (i 0) (i 1) k := by
    funext a; match a with | ⟨0, _⟩ => rfl | ⟨1, _⟩ => rfl | ⟨2, _⟩ => rfl
  have hr : Read.idx_main_v7 (Read.ridx_main_v8 i k) = ix2 (i 2) k := by
    funext a; match a with | ⟨0, _⟩ => rfl | ⟨1, _⟩ => rfl
  rw [hl, hr]
  rfl

/-- The value projection, by the same reading. -/
theorem v18_eq (x2 : (⟨S4x1024x1024, .f32⟩ : BufTy).Contents (Elt Ideal))
    (x7 : (⟨S1024x1024, .f32⟩ : BufTy).Contents (Elt Ideal))
    (x8 : (⟨S1024, .f32⟩ : BufTy).Contents (Elt Ideal)) :
    Read.val_main_v18 (F := Ideal) x2 x7 x8 = Attn.proj x2 x7 x8 := by
  funext i
  rw [Read.val_main_v18_apply, Read.val_main_v15_apply, Read.val_main_v17_apply, Read.val_main_v16_apply]
  show (∑ k : Fin 1024, x2 (Read.lidx_main_v15 i k) * Read.val_main_v14 (F := Ideal) x7 (Read.ridx_main_v15 i k))
      + x8 (Read.idx_main_v16 (Read.idx_main_v17 i))
    = (∑ e : Fin 1024, x2 (ix3 (i 0) (i 1) e) * x7 (ix2 (i 2) e)) + x8 (ix1 (i 2))
  have hb : Read.idx_main_v16 (Read.idx_main_v17 i) = ix1 (i 2) := by
    funext a; match a with | ⟨0, _⟩ => rfl
  rw [hb]
  refine congrArg (· + x8 (ix1 (i 2))) (Finset.sum_congr rfl fun k _ => ?_)
  rw [Read.val_main_v14_apply]
  have hl : Read.lidx_main_v15 i k = ix3 (i 0) (i 1) k := by
    funext a; match a with | ⟨0, _⟩ => rfl | ⟨1, _⟩ => rfl | ⟨2, _⟩ => rfl
  have hr : Read.idx_main_v14 (Read.ridx_main_v15 i k) = ix2 (i 2) k := by
    funext a; match a with | ⟨0, _⟩ => rfl | ⟨1, _⟩ => rfl
  rw [hl, hr]
  rfl

/-! ## Splitting the embedding axis into heads -/

/-- The reshape [4,1024,1024] → [4,1024,16,64] followed by the transpose of the two middle axes: entry (b, h, s, d) of
    the result is entry (b, s, 64h + d) of the source. -/
theorem split_heads_idx (b : Fin 4) (h : Fin 16) (s : Fin 1024) (d : Fin 64) :
    Read.idx_main_v5 (Read.idx_main_v6 (ix4 b h s d)) = ix3 b s (Attn.hd h d) := by
  have hb := b.isLt; have hh := h.isLt; have hs := s.isLt; have hd := d.isLt
  funext a
  apply Fin.ext
  match a with
  | ⟨0, _⟩ =>
    show (((b.val * 1024 + s.val) * 16 + h.val) * 64 + d.val) / 1048576 = b.val
    omega
  | ⟨1, _⟩ =>
    show (((b.val * 1024 + s.val) * 16 + h.val) * 64 + d.val) / 1024 % 1024 = s.val
    omega
  | ⟨2, _⟩ =>
    show (((b.val * 1024 + s.val) * 16 + h.val) * 64 + d.val) % 1024 = h.val * 64 + d.val
    omega

/-- The query projection, split into heads. -/
theorem v6_at (x0 : (⟨S4x1024x1024, .f32⟩ : BufTy).Contents (Elt Ideal))
    (x3 : (⟨S1024x1024, .f32⟩ : BufTy).Contents (Elt Ideal))
    (x4 : (⟨S1024, .f32⟩ : BufTy).Contents (Elt Ideal)) (b : Fin 4) (h : Fin 16) (s : Fin 1024) (d : Fin 64) :
    Read.val_main_v6 (F := Ideal) x0 x3 x4 (ix4 b h s d)
      = Read.val_main_v4 (F := Ideal) x0 x3 x4 (ix3 b s (Attn.hd h d)) := by
  rw [Read.val_main_v6_apply, Read.val_main_v5_apply]
  exact congrArg _ (split_heads_idx b h s d)

/-- The key projection, split into heads. -/
theorem v13_at (x1 : (⟨S4x1024x1024, .f32⟩ : BufTy).Contents (Elt Ideal))
    (x5 : (⟨S1024x1024, .f32⟩ : BufTy).Contents (Elt Ideal))
    (x6 : (⟨S1024, .f32⟩ : BufTy).Contents (Elt Ideal)) (b : Fin 4) (h : Fin 16) (s : Fin 1024) (d : Fin 64) :
    Read.val_main_v13 (F := Ideal) x1 x5 x6 (ix4 b h s d)
      = Read.val_main_v11 (F := Ideal) x1 x5 x6 (ix3 b s (Attn.hd h d)) := by
  rw [Read.val_main_v13_apply, Read.val_main_v12_apply]
  exact congrArg _ (split_heads_idx b h s d)

/-- The value projection, split into heads. -/
theorem v20_at (x2 : (⟨S4x1024x1024, .f32⟩ : BufTy).Contents (Elt Ideal))
    (x7 : (⟨S1024x1024, .f32⟩ : BufTy).Contents (Elt Ideal))
    (x8 : (⟨S1024, .f32⟩ : BufTy).Contents (Elt Ideal)) (b : Fin 4) (h : Fin 16) (s : Fin 1024) (d : Fin 64) :
    Read.val_main_v20 (F := Ideal) x2 x7 x8 (ix4 b h s d)
      = Read.val_main_v18 (F := Ideal) x2 x7 x8 (ix3 b s (Attn.hd h d)) := by
  rw [Read.val_main_v20_apply, Read.val_main_v19_apply]
  exact congrArg _ (split_heads_idx b h s d)

/-! ## The scores -/

/-- A scaled score of the reference: the contraction over the 64 columns of head h, times 1/8. -/
theorem v23_at (x0 x1 : (⟨S4x1024x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 4) (h : Fin 16) (q k : Fin 1024) :
    Read.val_main_v23 (F := Ideal) x0 x1 x3 x4 x5 x6 (ix4 b h q k)
      = Attn.scoreAt (Read.val_main_v4 (F := Ideal) x0 x3 x4) (Read.val_main_v11 (F := Ideal) x1 x5 x6) b h q k := by
  rw [Read.val_main_v23_apply, Read.val_main_v21_apply, Read.val_main_v22_apply, Read.val_main_cst_apply]
  show (∑ d : Fin 64, Read.val_main_v6 (F := Ideal) x0 x3 x4 (Read.lidx_main_v21 (ix4 b h q k) d)
        * Read.val_main_v13 (F := Ideal) x1 x5 x6 (Read.ridx_main_v21 (ix4 b h q k) d)) * Attn.scale
    = (∑ d : Fin 64, Read.val_main_v4 (F := Ideal) x0 x3 x4 (ix3 b q (Attn.hd h d))
        * Read.val_main_v11 (F := Ideal) x1 x5 x6 (ix3 b k (Attn.hd h d))) * Attn.scale
  refine congrArg (· * Attn.scale) (Finset.sum_congr rfl fun d _ => ?_)
  have hl : Read.lidx_main_v21 (ix4 b h q k) d = ix4 b h q d := by
    funext a; match a with | ⟨0, _⟩ => rfl | ⟨1, _⟩ => rfl | ⟨2, _⟩ => rfl | ⟨3, _⟩ => rfl
  have hr : Read.ridx_main_v21 (ix4 b h q k) d = ix4 b h k d := by
    funext a; match a with | ⟨0, _⟩ => rfl | ⟨1, _⟩ => rfl | ⟨2, _⟩ => rfl | ⟨3, _⟩ => rfl
  rw [hl, hr, v6_at, v13_at]

/-! ## The row maximum -/

/-- −∞ is the unit of the maximum. -/
theorem max_negInf (x : EReal) : max Attn.negInf x = x := by
  simp [Attn.negInf, Ideal.ofBits, Ideal.ieee]

/-- The index over row (b, h, q) with coordinate k on the reduced axis. -/
theorem lift_row (hR : S4x16x1024x1024.Reduces [3] S4x16x1024) (b : Fin 4) (h : Fin 16) (q k : Fin 1024) :
    hR.lift (ix3 b h q) k = ix4 b h q k := by
  funext c
  apply Fin.ext
  show Shape.Reduces.liftVal hR (ix3 b h q) k.val c = (ix4 b h q k c).val
  unfold Shape.Reduces.liftVal
  match c with
  | ⟨0, _⟩ => rfl
  | ⟨1, _⟩ => rfl
  | ⟨2, _⟩ => rfl
  | ⟨3, _⟩ => rfl

/-- The maximum of a row of scores: the reduction folds max from −∞ along the key axis, and the further maximum
    with −∞ changes nothing. -/
theorem v26_at (x0 x1 : (⟨S4x1024x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 4) (h : Fin 16) (q : Fin 1024) :
    Read.val_main_v26 (F := Ideal) x0 x1 x3 x4 x5 x6 (ix3 b h q)
      = Attn.rowMax (fun k => Attn.scoreAt (Read.val_main_v4 (F := Ideal) x0 x3 x4) (Read.val_main_v11 (F := Ideal) x1 x5 x6) b h q k) := by
  rw [Read.val_main_v26_apply, Read.val_main_v25_apply, Read.val_main_cst_1_apply]
  show max Attn.negInf (Read.val_main_v24 (F := Ideal) x0 x1 x3 x4 x5 x6 (ix3 b h q)) = _
  rw [max_negInf]
  unfold Read.val_main_v24
  refine (Host.reduce_eq_fold_single _ _ _ reducesTo_S4x16x1024x1024_S4x16x1024_d3
    (by decide : S4x16x1024x1024.Reduces [3] S4x16x1024) h_S_ (ix3 b h q)).trans ?_
  have hf : (Read.val_main_v23 (F := Ideal) x0 x1 x3 x4 x5 x6
        ∘ (by decide : S4x16x1024x1024.Reduces [3] S4x16x1024).lift (ix3 b h q))
      = fun k : Fin 1024 => Attn.scoreAt (Read.val_main_v4 (F := Ideal) x0 x3 x4) (Read.val_main_v11 (F := Ideal) x1 x5 x6) b h q k :=
    funext fun k => (congrArg _ (lift_row _ b h q k)).trans (v23_at x0 x1 x3 x4 x5 x6 b h q k)
  rw [hf]
  rfl

/-! ## The softmax -/

/-- An exponential of the reference: of the score minus its row's maximum. -/
theorem v30_at (x0 x1 : (⟨S4x1024x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 4) (h : Fin 16) (q k : Fin 1024) :
    Read.val_main_v30 (F := Ideal) x0 x1 x3 x4 x5 x6 (ix4 b h q k)
      = Ideal.exp (Attn.scoreAt (Read.val_main_v4 (F := Ideal) x0 x3 x4) (Read.val_main_v11 (F := Ideal) x1 x5 x6) b h q k
          - Attn.rowMax (fun k' => Attn.scoreAt (Read.val_main_v4 (F := Ideal) x0 x3 x4) (Read.val_main_v11 (F := Ideal) x1 x5 x6) b h q k')) := by
  rw [Read.val_main_v30_apply, Read.val_main_v29_apply, Read.val_main_v28_apply, Read.val_main_v27_apply]
  have hi : Read.idx_main_v27 (Read.idx_main_v28 (ix4 b h q k)) = ix3 b h q := by
    funext a; match a with | ⟨0, _⟩ => rfl | ⟨1, _⟩ => rfl | ⟨2, _⟩ => rfl
  rw [hi, v26_at, v23_at]
  rfl

/-- A row's sum of exponentials: the reduction starts from 0, which adds nothing. -/
theorem v31_at (x0 x1 : (⟨S4x1024x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 4) (h : Fin 16) (q : Fin 1024) :
    Read.val_main_v31 (F := Ideal) x0 x1 x3 x4 x5 x6 (ix3 b h q)
      = ∑ k : Fin 1024, Ideal.exp (Attn.scoreAt (Read.val_main_v4 (F := Ideal) x0 x3 x4) (Read.val_main_v11 (F := Ideal) x1 x5 x6) b h q k
          - Attn.rowMax (fun k' => Attn.scoreAt (Read.val_main_v4 (F := Ideal) x0 x3 x4) (Read.val_main_v11 (F := Ideal) x1 x5 x6) b h q k')) := by
  rw [Read.val_main_v31_apply, Read.val_main_cst_2_apply]
  show Ideal.ofBits .f32 0x00000000#32 + _ = _
  rw [Ideal.ofBits_zero_f32, zero_add]
  refine Finset.sum_congr rfl fun k _ => ?_
  have hi : Read.idx_main_v31 (ix3 b h q) k = ix4 b h q k := by
    funext a; match a with | ⟨0, _⟩ => rfl | ⟨1, _⟩ => rfl | ⟨2, _⟩ => rfl | ⟨3, _⟩ => rfl
  rw [hi, v30_at]

/-- The attention weights of the reference are the softmax of the scaled scores of the two projections. -/
theorem v34_eq (x0 x1 : (⟨S4x1024x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) :
    Read.val_main_v34 (F := Ideal) x0 x1 x3 x4 x5 x6
      = Attn.weights (Read.val_main_v4 (F := Ideal) x0 x3 x4) (Read.val_main_v11 (F := Ideal) x1 x5 x6) := by
  funext i
  obtain ⟨b, h, q, k, rfl⟩ : ∃ (b : Fin 4) (h : Fin 16) (q k : Fin 1024), i = ix4 b h q k :=
    ⟨i 0, i 1, i 2, i 3, eq_ix4 i⟩
  rw [Read.val_main_v34_apply, Read.val_main_v33_apply, Read.val_main_v32_apply]
  have hi : Read.idx_main_v32 (Read.idx_main_v33 (ix4 b h q k)) = ix3 b h q := by
    funext a; match a with | ⟨0, _⟩ => rfl | ⟨1, _⟩ => rfl | ⟨2, _⟩ => rfl
  rw [hi, v30_at, v31_at]
  rfl

/-! ## The context -/

/-- The transpose of the two middle axes back, followed by the reshape [4,1024,16,64] → [4,1024,1024]: entry (b, s, c) of
    the result is entry (b, c / 64, s, c % 64) of the source. -/
theorem merge_heads_idx (b : Fin 4) (s c : Fin 1024) :
    Read.idx_main_v36 (Read.idx_main_v37 (ix3 b s c))
      = ix4 b (⟨c.val / 64, by have := c.isLt; omega⟩ : Fin 16) s (⟨c.val % 64, Nat.mod_lt _ (by decide)⟩ : Fin 64) := by
  have hb := b.isLt; have hs := s.isLt; have hc := c.isLt
  funext a
  apply Fin.ext
  match a with
  | ⟨0, _⟩ =>
    show ((b.val * 1024 + s.val) * 1024 + c.val) / 1048576 = b.val
    omega
  | ⟨1, _⟩ =>
    show ((b.val * 1024 + s.val) * 1024 + c.val) / 64 % 16 = c.val / 64
    omega
  | ⟨2, _⟩ =>
    show ((b.val * 1024 + s.val) * 1024 + c.val) / 1024 % 1024 = s.val
    omega
  | ⟨3, _⟩ =>
    show ((b.val * 1024 + s.val) * 1024 + c.val) % 64 = c.val % 64
    omega

/-- An entry of the per-head context of the reference: the contraction of a row of weights with a column of head h's
    values, over the key axis. -/
theorem v35_at (x0 x1 x2 : (⟨S4x1024x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (b : Fin 4) (h : Fin 16) (q : Fin 1024) (d : Fin 64) :
    Read.val_main_v35 (F := Ideal) x0 x1 x2 x3 x4 x5 x6 x7 x8 (ix4 b h q d)
      = Attn.ctxAt (Read.val_main_v34 (F := Ideal) x0 x1 x3 x4 x5 x6) (Read.val_main_v18 (F := Ideal) x2 x7 x8) b q h d := by
  rw [Read.val_main_v35_apply]
  unfold Attn.ctxAt
  refine Finset.sum_congr rfl fun k _ => ?_
  have hl : Read.lidx_main_v35 (ix4 b h q d) k = ix4 b h q k := by
    funext a; match a with | ⟨0, _⟩ => rfl | ⟨1, _⟩ => rfl | ⟨2, _⟩ => rfl | ⟨3, _⟩ => rfl
  have hr : Read.ridx_main_v35 (ix4 b h q d) k = ix4 b h k d := by
    funext a; match a with | ⟨0, _⟩ => rfl | ⟨1, _⟩ => rfl | ⟨2, _⟩ => rfl | ⟨3, _⟩ => rfl
  rw [hl, hr, v20_at]

/-- The context of the reference: column c is head c / 64's column c % 64. -/
theorem v37_eq (x0 x1 x2 : (⟨S4x1024x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal)) :
    Read.val_main_v37 (F := Ideal) x0 x1 x2 x3 x4 x5 x6 x7 x8
      = Attn.context (Read.val_main_v34 (F := Ideal) x0 x1 x3 x4 x5 x6) (Read.val_main_v18 (F := Ideal) x2 x7 x8) := by
  funext i
  obtain ⟨b, s, c, rfl⟩ : ∃ (b : Fin 4) (s c : Fin 1024), i = ix3 b s c := ⟨i 0, i 1, i 2, eq_ix3 i⟩
  rw [Read.val_main_v37_apply, Read.val_main_v36_apply, merge_heads_idx, v35_at]
  rfl

/-! ## The output projection and the whole layer -/

/-- The output projection of the reference: a linear layer applied to the context. -/
theorem v42_eq (x0 x1 x2 : (⟨S4x1024x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal)) :
    Read.val_main_v42 (F := Ideal) x0 x1 x2 x3 x4 x5 x6 x7 x8 x9 x10
      = Attn.proj (Read.val_main_v37 (F := Ideal) x0 x1 x2 x3 x4 x5 x6 x7 x8) x9 x10 := by
  funext i
  rw [Read.val_main_v42_apply, Read.val_main_v39_apply, Read.val_main_v41_apply, Read.val_main_v40_apply]
  show (∑ k : Fin 1024, (Read.val_main_v37 (F := Ideal) x0 x1 x2 x3 x4 x5 x6 x7 x8) (Read.lidx_main_v39 i k)
        * Read.val_main_v38 (F := Ideal) x9 (Read.ridx_main_v39 i k))
      + x10 (Read.idx_main_v40 (Read.idx_main_v41 i))
    = (∑ e : Fin 1024, (Read.val_main_v37 (F := Ideal) x0 x1 x2 x3 x4 x5 x6 x7 x8) (ix3 (i 0) (i 1) e) * x9 (ix2 (i 2) e))
      + x10 (ix1 (i 2))
  have hb : Read.idx_main_v40 (Read.idx_main_v41 i) = ix1 (i 2) := by
    funext a; match a with | ⟨0, _⟩ => rfl
  rw [hb]
  refine congrArg (· + x10 (ix1 (i 2))) (Finset.sum_congr rfl fun k _ => ?_)
  rw [Read.val_main_v38_apply]
  have hl : Read.lidx_main_v39 i k = ix3 (i 0) (i 1) k := by
    funext a; match a with | ⟨0, _⟩ => rfl | ⟨1, _⟩ => rfl | ⟨2, _⟩ => rfl
  have hr : Read.idx_main_v38 (Read.ridx_main_v39 i k) = ix2 (i 2) k := by
    funext a; match a with | ⟨0, _⟩ => rfl | ⟨1, _⟩ => rfl
  rw [hl, hr]
  rfl

/-- The reference's attention weights are the specification's, as a function of the six arguments they depend on. -/
theorem weights_eq (x0 x1 : (⟨S4x1024x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) :
    Read.val_main_v34 (F := Ideal) x0 x1 x3 x4 x5 x6 = Attn.attnWeights x0 x1 x3 x4 x5 x6 := by
  rw [v34_eq, v4_eq, v11_eq]
  rfl

/-- The reference's result is the specification's multi-head attention of its eleven arguments. -/
theorem out_eq (x0 x1 x2 : (⟨S4x1024x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal)) :
    Read.val_main_v42 (F := Ideal) x0 x1 x2 x3 x4 x5 x6 x7 x8 x9 x10
      = Attn.attnOut x0 x1 x2 x3 x4 x5 x6 x7 x8 x9 x10 := by
  rw [v42_eq, v37_eq, weights_eq, v18_eq]
  rfl

end Cert.RefSide

end
-- ==== Proof.KernelRun.lean ====
/-
  The idealized kernel program's run with every buffer named: every weakly fair execution of the program ends with
  each unscoped buffer of each core at the last boundary's contents, the fold of the six stretches of host operations
  and the five regions' write-backs from the launch memory. The frame claim keeps only the arguments of this; the
  value claim needs the two results.
-/
import proofs.«152439_j69595650064719_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.KernelIdeal.KRun

end
-- ==== Proof.LinG.lean ====
/-
  A linear layer on the flattened [4096, 1024] array of rows: entry (r, f) is (Σ_e X[r,e] · Wt[e,f]) + bias[0,f],
  Wt the transposed weights.
-/
import Idealize.ShloMosaic.PureOps.Ideal
import Idealize.ShloMosaic.Lib.ValueIdx

noncomputable section

namespace Cert.Attn

open Idealize.ShloMosaic Idealize.ShloMosaic.ValueIdx
open scoped BigOperators

/-- The linear layer on flattened rows, against the transposed weights and the bias as a one-row matrix. -/
def linG (X : (⟨2, ![4096, 1024]⟩ : Shape).Idx → EReal) (Wt : (⟨2, ![1024, 1024]⟩ : Shape).Idx → EReal)
    (Bv : (⟨2, ![1, 1024]⟩ : Shape).Idx → EReal) : (⟨2, ![4096, 1024]⟩ : Shape).Idx → EReal :=
  fun i => (∑ e : Fin 1024, X (ix2 (i 0) e) * Wt (ix2 e (i 1))) + Bv (ix2 (0 : Fin 1) (i 1))

end Cert.Attn

end
-- ==== Proof.HostGlue.lean ====
/-
  The host operations around the kernel regions, read as values: each array a region is entered with is a reshape,
  or a transpose rounded to the narrower format, of an argument or of an array an earlier region left; and a linear
  layer on the flattened rows, reshaped back, is the linear layer of the specification.
-/
import proofs.«152439_j69595650064719_2_alg».proof.Proof.Gen.KernelIdeal.Frame
import proofs.«152439_j69595650064719_2_alg».proof.Proof.Spec
import proofs.«152439_j69595650064719_2_alg».proof.Proof.LinG
import Idealize.ShloMosaic.Lib.StableHlo.Run
import Idealize.ShloMosaic.Lib.Pipeline.Value
import Idealize.ShloMosaic.Lib.ValueIdx

noncomputable section

namespace Cert.KGlue

open Cert.KernelIdeal Cert.KernelIdeal.Gen Idealize.ShloMosaic Idealize.ShloMosaic.TcCoe Idealize.ShloMosaic.ValueIdx
open Idealize.SL.Sem
open scoped BigOperators

/-! ## The linear layer on flattened rows -/

/-- Flatten the two leading axes, multiply by the transposed weights (at the ideal values the rounding to the narrower
    format is the identity), add the bias as a one-row matrix, and restore the axes: the result is the linear layer. -/
theorem lin_layer (X : Attn.A3.Idx → EReal) (Wm : Attn.M2.Idx → EReal) (bias : Attn.B1.Idx → EReal) :
    shapeCast S4x1024x1024
        (Attn.linG (shapeCast S4096x1024 X shapeCasts_S4x1024x1024_S4096x1024)
          (truncf (F := Ideal) .bf16
            (transpose S1024x1024 [1, 0] Wm transposes_S1024x1024_S1024x1024_1_0 : FVec Ideal S1024x1024 .f32) bitsLt_bf16_f32)
          (shapeCast S1x1024 bias shapeCasts_S1024_S1x1024))
        shapeCasts_S4096x1024_S4x1024x1024
      = Attn.proj X Wm bias := by
  funext i
  obtain ⟨b, s, f, rfl⟩ : ∃ (b : Fin 4) (s f : Fin 1024), i = ix3 b s f := ⟨i 0, i 1, i 2, eq_ix3 i⟩
  have hb := b.isLt; have hs := s.isLt; have hf := f.isLt
  let r : Fin 4096 := ⟨b.val * 1024 + s.val, by omega⟩
  refine (shapeCast_apply _ shapeCasts_S4096x1024_S4x1024x1024 (ix3 b s f) (ix2 r f) (by
    rw [Shape.rowMajor_val_two, Shape.rowMajor_val_three]
    show (b.val * 1024 + s.val) * 1024 + f.val = (b.val * 1024 + s.val) * 1024 + f.val
    rfl)).trans ?_
  show (∑ e : Fin 1024, shapeCast S4096x1024 X shapeCasts_S4x1024x1024_S4096x1024 (ix2 r e)
          * transpose S1024x1024 [1, 0] Wm transposes_S1024x1024_S1024x1024_1_0 (ix2 e f))
        + shapeCast S1x1024 bias shapeCasts_S1024_S1x1024 (ix2 (0 : Fin 1) f)
      = (∑ e : Fin 1024, X (ix3 b s e) * Wm (ix2 f e)) + bias (ix1 f)
  have hB : shapeCast S1x1024 bias shapeCasts_S1024_S1x1024 (ix2 (0 : Fin 1) f) = bias (ix1 f) :=
    shapeCast_apply bias shapeCasts_S1024_S1x1024 (ix2 (0 : Fin 1) f) (ix1 f) (by
      rw [Shape.rowMajor_val_one, Shape.rowMajor_val_two]
      show f.val = 0 * 1024 + f.val
      omega)
  rw [hB]
  refine congrArg (· + bias (ix1 f)) (Finset.sum_congr rfl fun e _ => ?_)
  have hX : shapeCast S4096x1024 X shapeCasts_S4x1024x1024_S4096x1024 (ix2 r e) = X (ix3 b s e) :=
    shapeCast_apply X shapeCasts_S4x1024x1024_S4096x1024 (ix2 r e) (ix3 b s e) (by
      rw [Shape.rowMajor_val_two, Shape.rowMajor_val_three]
      rfl)
  have hW : transpose S1024x1024 [1, 0] Wm transposes_S1024x1024_S1024x1024_1_0 (ix2 e f) = Wm (ix2 f e) :=
    transpose_apply [1, 0] Wm transposes_S1024x1024_S1024x1024_1_0 (ix2 e f) (ix2 f e) (fun a => match a with
      | ⟨0, _⟩ => rfl
      | ⟨1, _⟩ => rfl)
  rw [hX, hW]

/-! ## The host stretches between the regions -/

variable (m : (ℓ : Loc nD τ sig) → Buf (Elt Ideal) ℓ) (ρ : Dev nD → PrngReg) (c : Dev nD)

/-- A buffer that no operation of a host stretch writes holds after the stretch what it held before. -/
macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ### After the last region -/

/-- The result: the last region's output with its two leading axes restored. -/
theorem w11_v24 :
    W11 m ρ c (Proc.devRef .tc main_v24)
      = shapeCast S4x1024x1024 (W10 m ρ c (Proc.devRef .tc main_v23)) shapeCasts_S4096x1024_S4x1024x1024 := by
  show StableHlo.after hostOps5 (W10 m ρ c) (Proc.devRef .tc main_v24) = _
  (after_results) <;> rfl

/-- The second result is as the fourth region left it: neither the last region nor the stretches after write it. -/
theorem w11_v18_1 :
    W11 m ρ c (Proc.devRef .tc main_v18_1) = W8 m ρ c (Proc.devRef .tc main_v18_1) :=
  calc W11 m ρ c (Proc.devRef .tc main_v18_1)
    _ = W10 m ρ c (Proc.devRef .tc main_v18_1) := by host_keeps hostOps5
    _ = W9 m ρ c (Proc.devRef .tc main_v18_1) := W10_of_ne m ρ c main_v18_1 (by decide)
    _ = W8 m ρ c (Proc.devRef .tc main_v18_1) := by host_keeps hostOps4

/-! ### Entering the last region -/

/-- The output weights and bias are still the launch contents when the stretch before the last region reads them. -/
theorem w8_arg9 : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := by host_keeps hostOps3
    _ = W5 m ρ c (Proc.devRef .tc main_arg9) := W6_of_ne m ρ c main_arg9 (by decide)
    _ = W4 m ρ c (Proc.devRef .tc main_arg9) := by host_keeps hostOps2
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

theorem w8_arg10 : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := by host_keeps hostOps3
    _ = W5 m ρ c (Proc.devRef .tc main_arg10) := W6_of_ne m ρ c main_arg10 (by decide)
    _ = W4 m ρ c (Proc.devRef .tc main_arg10) := by host_keeps hostOps2
    _ = W3 m ρ c (Proc.devRef .tc main_arg10) := W4_of_ne m ρ c main_arg10 (by decide)
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

/-- The context, flattened to rows, as the fourth region left it. -/
theorem v9_v19 :
    V9 m ρ c main_v19
      = shapeCast S4096x1024 (W8 m ρ c (Proc.devRef .tc main_v18_0)) shapeCasts_S4x1024x1024_S4096x1024 := by
  show StableHlo.after hostOps4 (W8 m ρ c) (Proc.devRef .tc main_v19) = _
  (after_results) <;> rfl

/-- The output weights, transposed and rounded. -/
theorem v9_v21 :
    V9 m ρ c main_v21
      = truncf (F := Ideal) .bf16
        (transpose S1024x1024 [1, 0] (m ((c : Thread nD τ).loc main_arg9)) transposes_S1024x1024_S1024x1024_1_0 : FVec Ideal S1024x1024 .f32) bitsLt_bf16_f32 := by
  show StableHlo.after hostOps4 (W8 m ρ c) (Proc.devRef .tc main_v21) = _
  (after_results) <;> first | (rw [w8_arg9] <;> rfl) | rfl

/-- The output bias as a one-row matrix. -/
theorem v9_v22 :
    V9 m ρ c main_v22 = shapeCast S1x1024 (m ((c : Thread nD τ).loc main_arg10)) shapeCasts_S1024_S1x1024 := by
  show StableHlo.after hostOps4 (W8 m ρ c) (Proc.devRef .tc main_v22) = _
  (after_results) <;> first | (rw [w8_arg10] <;> rfl) | rfl

/-! ### Entering the fourth region -/

/-- The query projection with its leading axes restored, as the first region left it: nothing after writes it. -/
theorem v7_v7 :
    V7 m ρ c main_v7
      = shapeCast S4x1024x1024 (W2 m ρ c (Proc.devRef .tc main_v6)) shapeCasts_S4096x1024_S4x1024x1024 :=
  calc V7 m ρ c main_v7
    _ = W7 m ρ c (Proc.devRef .tc main_v7) := rfl
    _ = W6 m ρ c (Proc.devRef .tc main_v7) := by host_keeps hostOps3
    _ = W5 m ρ c (Proc.devRef .tc main_v7) := W6_of_ne m ρ c main_v7 (by decide)
    _ = W4 m ρ c (Proc.devRef .tc main_v7) := by host_keeps hostOps2
    _ = W3 m ρ c (Proc.devRef .tc main_v7) := W4_of_ne m ρ c main_v7 (by decide)
    _ = shapeCast S4x1024x1024 (W2 m ρ c (Proc.devRef .tc main_v6)) shapeCasts_S4096x1024_S4x1024x1024 := by
      show StableHlo.after hostOps1 (W2 m ρ c) (Proc.devRef .tc main_v7) = _
      (after_results) <;> rfl

/-- The key projection with its leading axes restored, as the second region left it. -/
theorem v7_v12 :
    V7 m ρ c main_v12
      = shapeCast S4x1024x1024 (W4 m ρ c (Proc.devRef .tc main_v11)) shapeCasts_S4096x1024_S4x1024x1024 :=
  calc V7 m ρ c main_v12
    _ = W7 m ρ c (Proc.devRef .tc main_v12) := rfl
    _ = W6 m ρ c (Proc.devRef .tc main_v12) := by host_keeps hostOps3
    _ = W5 m ρ c (Proc.devRef .tc main_v12) := W6_of_ne m ρ c main_v12 (by decide)
    _ = shapeCast S4x1024x1024 (W4 m ρ c (Proc.devRef .tc main_v11)) shapeCasts_S4096x1024_S4x1024x1024 := by
      show StableHlo.after hostOps2 (W4 m ρ c) (Proc.devRef .tc main_v12) = _
      (after_results) <;> rfl

/-- The value projection with its leading axes restored, as the third region left it. -/
theorem v7_v17 :
    V7 m ρ c main_v17
      = shapeCast S4x1024x1024 (W6 m ρ c (Proc.devRef .tc main_v16)) shapeCasts_S4096x1024_S4x1024x1024 :=
  calc V7 m ρ c main_v17
    _ = W7 m ρ c (Proc.devRef .tc main_v17) := rfl
    _ = shapeCast S4x1024x1024 (W6 m ρ c (Proc.devRef .tc main_v16)) shapeCasts_S4096x1024_S4x1024x1024 := by
      show StableHlo.after hostOps3 (W6 m ρ c) (Proc.devRef .tc main_v17) = _
      (after_results) <;> rfl

/-! ### Entering the first region -/

/-- The query input, flattened to rows. -/
theorem v1_v0 :
    V1 m ρ c main_v0
      = shapeCast S4096x1024 (m ((c : Thread nD τ).loc main_arg0)) shapeCasts_S4x1024x1024_S4096x1024 :=
  calc V1 m ρ c main_v0
    _ = W1 m ρ c (Proc.devRef .tc main_v0) := rfl
    _ = shapeCast S4096x1024 (m ((c : Thread nD τ).loc main_arg0)) shapeCasts_S4x1024x1024_S4096x1024 := by
      show StableHlo.after hostOps0 (W0 m ρ c) (Proc.devRef .tc main_v0) = _
      (after_results) <;> rfl

/-- The query weights, transposed and rounded. -/
theorem v1_v4 :
    V1 m ρ c main_v4
      = truncf (F := Ideal) .bf16
        (transpose S1024x1024 [1, 0] (m ((c : Thread nD τ).loc main_arg3)) transposes_S1024x1024_S1024x1024_1_0 : FVec Ideal S1024x1024 .f32) bitsLt_bf16_f32 :=
  calc V1 m ρ c main_v4
    _ = W1 m ρ c (Proc.devRef .tc main_v4) := rfl
    _ = truncf (F := Ideal) .bf16
        (transpose S1024x1024 [1, 0] (m ((c : Thread nD τ).loc main_arg3)) transposes_S1024x1024_S1024x1024_1_0 : FVec Ideal S1024x1024 .f32) bitsLt_bf16_f32 := by
      show StableHlo.after hostOps0 (W0 m ρ c) (Proc.devRef .tc main_v4) = _
      (after_results) <;> rfl

/-- The query bias as a one-row matrix. -/
theorem v1_v5 :
    V1 m ρ c main_v5
      = shapeCast S1x1024 (m ((c : Thread nD τ).loc main_arg4)) shapeCasts_S1024_S1x1024 :=
  calc V1 m ρ c main_v5
    _ = W1 m ρ c (Proc.devRef .tc main_v5) := rfl
    _ = shapeCast S1x1024 (m ((c : Thread nD τ).loc main_arg4)) shapeCasts_S1024_S1x1024 := by
      show StableHlo.after hostOps0 (W0 m ρ c) (Proc.devRef .tc main_v5) = _
      (after_results) <;> rfl

/-! ### Entering the second region -/

/-- The key weights and bias are still the launch contents when the stretch before the second region reads them. -/
theorem w2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl

theorem w2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

/-- The key input, flattened to rows by the first stretch and untouched since. -/
theorem v3_v1 :
    V3 m ρ c main_v1
      = shapeCast S4096x1024 (m ((c : Thread nD τ).loc main_arg1)) shapeCasts_S4x1024x1024_S4096x1024 :=
  calc V3 m ρ c main_v1
    _ = W3 m ρ c (Proc.devRef .tc main_v1) := rfl
    _ = W2 m ρ c (Proc.devRef .tc main_v1) := by host_keeps hostOps1
    _ = W1 m ρ c (Proc.devRef .tc main_v1) := W2_of_ne m ρ c main_v1 (by decide)
    _ = shapeCast S4096x1024 (m ((c : Thread nD τ).loc main_arg1)) shapeCasts_S4x1024x1024_S4096x1024 := by
      show StableHlo.after hostOps0 (W0 m ρ c) (Proc.devRef .tc main_v1) = _
      (after_results) <;> rfl

/-- The key weights, transposed and rounded. -/
theorem v3_v9 :
    V3 m ρ c main_v9
      = truncf (F := Ideal) .bf16
        (transpose S1024x1024 [1, 0] (m ((c : Thread nD τ).loc main_arg5)) transposes_S1024x1024_S1024x1024_1_0 : FVec Ideal S1024x1024 .f32) bitsLt_bf16_f32 :=
  calc V3 m ρ c main_v9
    _ = W3 m ρ c (Proc.devRef .tc main_v9) := rfl
    _ = truncf (F := Ideal) .bf16
        (transpose S1024x1024 [1, 0] (m ((c : Thread nD τ).loc main_arg5)) transposes_S1024x1024_S1024x1024_1_0 : FVec Ideal S1024x1024 .f32) bitsLt_bf16_f32 := by
      show StableHlo.after hostOps1 (W2 m ρ c) (Proc.devRef .tc main_v9) = _
      (after_results) <;> first | (rw [w2_arg5] <;> rfl) | rfl

/-- The key bias as a one-row matrix. -/
theorem v3_v10 :
    V3 m ρ c main_v10
      = shapeCast S1x1024 (m ((c : Thread nD τ).loc main_arg6)) shapeCasts_S1024_S1x1024 :=
  calc V3 m ρ c main_v10
    _ = W3 m ρ c (Proc.devRef .tc main_v10) := rfl
    _ = shapeCast S1x1024 (m ((c : Thread nD τ).loc main_arg6)) shapeCasts_S1024_S1x1024 := by
      show StableHlo.after hostOps1 (W2 m ρ c) (Proc.devRef .tc main_v10) = _
      (after_results) <;> first | (rw [w2_arg6] <;> rfl) | rfl

/-! ### Entering the third region -/

/-- The value weights and bias are still the launch contents when the stretch before the third region reads them. -/
theorem w4_arg7 : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

theorem w4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

/-- The value input, flattened to rows by the first stretch and untouched since. -/
theorem v5_v2 :
    V5 m ρ c main_v2
      = shapeCast S4096x1024 (m ((c : Thread nD τ).loc main_arg2)) shapeCasts_S4x1024x1024_S4096x1024 :=
  calc V5 m ρ c main_v2
    _ = W5 m ρ c (Proc.devRef .tc main_v2) := rfl
    _ = W4 m ρ c (Proc.devRef .tc main_v2) := by host_keeps hostOps2
    _ = W3 m ρ c (Proc.devRef .tc main_v2) := W4_of_ne m ρ c main_v2 (by decide)
    _ = W2 m ρ c (Proc.devRef .tc main_v2) := by host_keeps hostOps1
    _ = W1 m ρ c (Proc.devRef .tc main_v2) := W2_of_ne m ρ c main_v2 (by decide)
    _ = shapeCast S4096x1024 (m ((c : Thread nD τ).loc main_arg2)) shapeCasts_S4x1024x1024_S4096x1024 := by
      show StableHlo.after hostOps0 (W0 m ρ c) (Proc.devRef .tc main_v2) = _
      (after_results) <;> rfl

/-- The value weights, transposed and rounded. -/
theorem v5_v14 :
    V5 m ρ c main_v14
      = truncf (F := Ideal) .bf16
        (transpose S1024x1024 [1, 0] (m ((c : Thread nD τ).loc main_arg7)) transposes_S1024x1024_S1024x1024_1_0 : FVec Ideal S1024x1024 .f32) bitsLt_bf16_f32 :=
  calc V5 m ρ c main_v14
    _ = W5 m ρ c (Proc.devRef .tc main_v14) := rfl
    _ = truncf (F := Ideal) .bf16
        (transpose S1024x1024 [1, 0] (m ((c : Thread nD τ).loc main_arg7)) transposes_S1024x1024_S1024x1024_1_0 : FVec Ideal S1024x1024 .f32) bitsLt_bf16_f32 := by
      show StableHlo.after hostOps2 (W4 m ρ c) (Proc.devRef .tc main_v14) = _
      (after_results) <;> first | (rw [w4_arg7] <;> rfl) | rfl

/-- The value bias as a one-row matrix. -/
theorem v5_v15 :
    V5 m ρ c main_v15
      = shapeCast S1x1024 (m ((c : Thread nD τ).loc main_arg8)) shapeCasts_S1024_S1x1024 :=
  calc V5 m ρ c main_v15
    _ = W5 m ρ c (Proc.devRef .tc main_v15) := rfl
    _ = shapeCast S1x1024 (m ((c : Thread nD τ).loc main_arg8)) shapeCasts_S1024_S1x1024 := by
      show StableHlo.after hostOps2 (W4 m ρ c) (Proc.devRef .tc main_v15) = _
      (after_results) <;> first | (rw [w4_arg8] <;> rfl) | rfl

end Cert.KGlue

end
-- ==== Proof.LinBody0.lean ====
/-
  The linear kernel's arithmetic at one entry. Its payload is a matrix product of a [1024,1024] block of rows with
  the [1024,1024] transposed weights, accumulated from zero, plus the bias row broadcast down the rows; at the
  extended reals (roundings the identity) entry (r, f) is (Σ_e x[r,e] · w[e,f]) + bias[0,f].
-/
import proofs.«152439_j69595650064719_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.LinBody0

open Idealize.ShloMosaic Idealize.ShloMosaic.ValueIdx Cert.KernelIdeal Cert.KernelIdeal.Gen
open scoped BigOperators

/-- The product's dimension record: rows of the left against columns of the right. -/
abbrev DL := dot_S1024x1024_S1024x1024_S1024x1024_1_0_0_1_n_n

theorem lhs0 (i : S1024x1024.Idx) (q : DL.contr.Idx) : (DL.lhsIdx i q 0).val = (i 0).val := by
  unfold DotDims.lhsIdx
  rw [dif_neg (show ¬(0 : Fin S1024x1024.rank) ∈ DL.lhsBatch by decide), dif_pos (show (0 : Fin S1024x1024.rank) ∈ DL.lhsNonContracting by decide)]
  rfl
theorem lhs1 (i : S1024x1024.Idx) (q : DL.contr.Idx) : (DL.lhsIdx i q 1).val = (q ⟨0, by decide⟩).val :=
  DL.lhsIdx_val_of_single rfl i q
theorem rhs0 (i : S1024x1024.Idx) (q : DL.contr.Idx) : (DL.rhsIdx i q 0).val = (q ⟨0, by decide⟩).val :=
  DL.rhsIdx_val_of_single rfl i q
theorem rhs1 (i : S1024x1024.Idx) (q : DL.contr.Idx) : (DL.rhsIdx i q 1).val = (i 1).val := by
  unfold DotDims.rhsIdx
  rw [dif_neg (show ¬(1 : Fin S1024x1024.rank) ∈ DL.rhsBatch by decide), dif_pos (show (1 : Fin S1024x1024.rank) ∈ DL.rhsNonContracting by decide)]
  rfl

/-- A [1024,1024] × [1024,1024] product accumulated from zero, at entry (r, f), is the sum over the shared axis. -/
theorem mm_apply (a : FVec Ideal S1024x1024 .bf16) (b : FVec Ideal S1024x1024 .bf16) (r f : Fin 1024) :
    matmul DL none a b (constant S1024x1024 .f32 0x00000000#32) (ix2 r f) = ∑ e : Fin 1024, a (ix2 r e) * b (ix2 e f) := by
  refine (Ideal.matmul_constant_zero_apply DL none a b (ix2 r f)).trans ?_
  rw [← Equiv.sum_comp (contrEquiv1 DL 1024 rfl rfl).symm]
  refine Finset.sum_congr rfl fun k _ => ?_
  have hk := contrEquiv1_symm_val DL 1024 rfl rfl k
  have el : DL.lhsIdx (ix2 r f) ((contrEquiv1 DL 1024 rfl rfl).symm k) = ix2 r k := funext fun a => Fin.ext (by
    match a with
    | ⟨0, _⟩ => exact lhs0 _ _
    | ⟨1, _⟩ => exact (lhs1 _ _).trans hk)
  have er : DL.rhsIdx (ix2 r f) ((contrEquiv1 DL 1024 rfl rfl).symm k) = ix2 k f := funext fun a => Fin.ext (by
    match a with
    | ⟨0, _⟩ => exact (rhs0 _ _).trans hk
    | ⟨1, _⟩ => exact rhs1 _ _)
  rw [el, er]

/-- The bias row broadcast down the rows, at entry (r, f), is the bias at column f. -/
theorem bias_apply (v : FVec Ideal S1x1024 .f32) (r f : Fin 1024) :
    broadcastTo S1024x1024 v broadcasts_S1x1024_S1024x1024 (ix2 r f) = v (ix2 (0 : Fin 1) f) := by
  refine broadcastTo_apply v broadcasts_S1x1024_S1024x1024 (ix2 r f) (ix2 (0 : Fin 1) f) fun a => ?_
  match a with
  | ⟨0, _⟩ => rfl
  | ⟨1, _⟩ => rfl

/-- The linear kernel's payload at entry (r, f). -/
theorem pay_apply (x0 : Vec Ideal S1024x1024 .f32) (x1 : Vec Ideal S1024x1024 .bf16) (x2 : Vec Ideal S1x1024 .f32) (r f : Fin 1024) :
    k0_pay1 (F := Ideal) x0 x1 x2 (ix2 r f) = (∑ e : Fin 1024, x0 (ix2 r e) * x1 (ix2 e f)) + x2 (ix2 (0 : Fin 1) f) := by
  unfold k0_pay1
  simp only [shapeCast_self]
  refine (addf_apply _ _ (ix2 r f)).trans ?_
  rw [mm_apply, bias_apply]
  rfl

end Cert.LinBody0

end
-- ==== Proof.LinArr0.lean ====
/-
  Region 0 (a linear kernel over four blocks of 1024 rows): what its output array holds when the region ends, as one
  function of the three arrays it reads. Point t reads rows 1024t … 1024t+1023 of the input, the whole transposed
  weights and the whole bias row, and writes back rows 1024t … 1024t+1023 of the output; the four blocks cover the array.
-/
import proofs.«152439_j69595650064719_2_alg».proof.Proof.Gen.KernelIdeal.Frame
import proofs.«152439_j69595650064719_2_alg».proof.Proof.LinBody0
import proofs.«152439_j69595650064719_2_alg».proof.Proof.LinG
import Idealize.ShloMosaic.Lib.Pipeline.Value

set_option maxRecDepth 16384

noncomputable section

namespace Cert.LinArr0

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the four points: the row-blocked windows sit at block (t, 0), the whole ones at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The payload at any index of the block. -/
theorem pay_at (x0 : Vec Ideal S1024x1024 .f32) (x1 : Vec Ideal S1024x1024 .bf16) (x2 : Vec Ideal S1x1024 .f32) (y : S1024x1024.Idx) :
    k0_pay1 (F := Ideal) x0 x1 x2 y = (∑ e : Fin 1024, x0 (ix2 (y 0) e) * x1 (ix2 e (y 1))) + x2 (ix2 (0 : Fin 1) (y 1)) :=
  (congrArg (k0_pay1 (F := Ideal) x0 x1 x2) (eq_ix2 y)).trans (Cert.LinBody0.pay_apply x0 x1 x2 (y 0) (y 1))

/-- The input rows' block at point t is rows 1024t … of the input array. -/
theorem iblk_x (c : Dev nD) (t : Fin cfg0.N) (y : S1024x1024.Idx) (k : S4096x1024.Idx)
    (hk0 : (k 0).val = t.val * 1024 + (y 0).val) (hk1 : (k 1).val = (y 1).val) :
    (iblk0 V c 0 t : Vec Ideal S1024x1024 .f32) y = (V c main_v0 : S4096x1024.Idx → EReal) k := by
  obtain ⟨e0, e1, -⟩ := idx_facts t
  unfold iblk0
  rw [View.read_apply]
  show V c main_v0 _ = V c main_v0 _
  refine congrArg _ (funext fun a => Fin.ext ?_)
  match a with
  | ⟨0, _⟩ => show win0_0.index t 0 * 1024 + 1 * (y 0).val = (k 0).val; rw [e0, hk0]; omega
  | ⟨1, _⟩ => show win0_0.index t 1 * 1024 + 1 * (y 1).val = (k 1).val; rw [e1, hk1]; omega

/-- The weights' block at every point is the whole transposed-weights array. -/
theorem iblk_w (c : Dev nD) (t : Fin cfg0.N) (y : S1024x1024.Idx) :
    (iblk0 V c 1 t : Vec Ideal S1024x1024 .bf16) y = (V c main_v4 : S1024x1024.Idx → EReal) y := by
  obtain ⟨-, -, e2, e3, -⟩ := idx_facts t
  unfold iblk0
  rw [View.read_apply]
  show V c main_v4 _ = V c main_v4 _
  refine congrArg _ (funext fun a => Fin.ext ?_)
  match a with
  | ⟨0, _⟩ => show win0_1.index t 0 * 1024 + 1 * (y 0).val = (y 0).val; rw [e2]; omega
  | ⟨1, _⟩ => show win0_1.index t 1 * 1024 + 1 * (y 1).val = (y 1).val; rw [e3]; omega

/-- The bias block at every point is the whole bias row. -/
theorem iblk_b (c : Dev nD) (t : Fin cfg0.N) (y : S1x1024.Idx) :
    (iblk0 V c 2 t : Vec Ideal S1x1024 .f32) y = (V c main_v5 : S1x1024.Idx → EReal) y := by
  obtain ⟨-, -, -, -, e4, e5, -⟩ := idx_facts t
  unfold iblk0
  rw [View.read_apply]
  show V c main_v5 _ = V c main_v5 _
  refine congrArg _ (funext fun a => Fin.ext ?_)
  match a with
  | ⟨0, _⟩ => show win0_2.index t 0 * 1 + 1 * (y 0).val = (y 0).val; rw [e4]; omega
  | ⟨1, _⟩ => show win0_2.index t 1 * 1024 + 1 * (y 1).val = (y 1).val; rw [e5]; omega

/-- What point t writes back is block t of the linear layer of the three arrays as the region finds them. -/
theorem flushed_eq (c : Dev nD) (t : Fin cfg0.N) :
    (dat0 V c).flushed 3 t = ((cfg0.win 3).blk t).view.read (Elt Ideal)
      (Attn.linG (V c main_v0) (V c main_v4) (V c main_v5)) := by
  show (cfg0.win 3).cut (grid0.coords t) ((dat0 V c).after 3 t) = _
  rw [after0_3]
  unfold out0_3
  rw [View.canon_unit_zero hz]
  simp only [View.ld_unit_zero (S := S1024x1024) hz, View.ld_unit_zero (S := S1x1024) hz]
  obtain ⟨-, -, -, -, -, -, e6, e7⟩ := idx_facts t
  funext j
  show k0_pay1 (F := Ideal) (iblk0 V c 0 t) (iblk0 V c 1 t) (iblk0 V c 2 t) j
    = Attn.linG (V c main_v0) (V c main_v4) (V c main_v5) (((cfg0.win 3).blk t).view.emb j)
  refine (pay_at _ _ _ j).trans ?_
  have h0 : ((((cfg0.win 3).blk t).view.emb j) 0).val = t.val * 1024 + (j 0).val := by
    show win0_3.index t 0 * 1024 + 1 * (j 0).val = _; rw [e6]; omega
  have h1 : ((((cfg0.win 3).blk t).view.emb j) 1).val = (j 1).val := by
    show win0_3.index t 1 * 1024 + 1 * (j 1).val = _; rw [e7]; omega
  unfold Attn.linG
  refine congrArg₂ (· + ·) (Finset.sum_congr rfl fun e _ => congrArg₂ (· * ·) ?_ ?_) ?_
  · exact iblk_x V c t _ _ h0 rfl
  · refine (iblk_w V c t _).trans (congrArg _ (funext fun a => Fin.ext ?_))
    match a with
    | ⟨0, _⟩ => rfl
    | ⟨1, _⟩ => exact h1.symm
  · refine (iblk_b V c t _).trans (congrArg _ (funext fun a => Fin.ext ?_))
    match a with
    | ⟨0, _⟩ => rfl
    | ⟨1, _⟩ => exact h1.symm

/-- An index of the output array lies in point t's block iff each coordinate lies in the block's range. -/
theorem mem_blk (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v6).slice (win0_3.rect t)).set ↔ _
  rw [View.set_slice_whole, Rect.mem_set_unit]
  exact Iff.rfl

/-- The output array when the region ends: the linear layer of the three arrays it reads. -/
theorem final (c : Dev nD) : (dat0 V c).arrAt 3 cfg0.N = Attn.linG (V c main_v0) (V c main_v4) (V c main_v5) :=
  (dat0 V c).arrAt_eq_of_cover 3 _ (fun t _ => flushed_eq V c t) fun i => by
    have hi0 : (i 0).val < 4096 := (i 0).isLt
    have hi1 : (i 1).val < 1024 := (i 1).isLt
    have hN : cfg0.N = 4 := N_0
    let t : Fin cfg0.N := ⟨(i 0).val / 1024, by rw [hN]; omega⟩
    obtain ⟨-, -, -, -, -, -, e6, e7⟩ := idx_facts t
    refine ⟨t, flush0_3 t, ?_⟩
    rw [mem_blk]
    intro a
    match a with
    | ⟨0, _⟩ => show win0_3.index t 0 * 1024 ≤ (i 0).val ∧ (i 0).val < win0_3.index t 0 * 1024 + 1024; rw [e6]; show (i 0).val / 1024 * 1024 ≤ _ ∧ _ < (i 0).val / 1024 * 1024 + 1024; omega
    | ⟨1, _⟩ => show win0_3.index t 1 * 1024 ≤ (i 1).val ∧ (i 1).val < win0_3.index t 1 * 1024 + 1024; rw [e7]; omega

end Cert.LinArr0

end
-- ==== Proof.LinBody1.lean ====
/-
  The linear kernel's arithmetic at one entry. Its payload is a matrix product of a [1024,1024] block of rows with
  the [1024,1024] transposed weights, accumulated from zero, plus the bias row broadcast down the rows; at the
  extended reals (roundings the identity) entry (r, f) is (Σ_e x[r,e] · w[e,f]) + bias[0,f].
-/
import proofs.«152439_j69595650064719_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.LinBody1

open Idealize.ShloMosaic Idealize.ShloMosaic.ValueIdx Cert.KernelIdeal Cert.KernelIdeal.Gen
open scoped BigOperators

/-- The product's dimension record: rows of the left against columns of the right. -/
abbrev DL := dot_S1024x1024_S1024x1024_S1024x1024_1_0_0_1_n_n

theorem lhs0 (i : S1024x1024.Idx) (q : DL.contr.Idx) : (DL.lhsIdx i q 0).val = (i 0).val := by
  unfold DotDims.lhsIdx
  rw [dif_neg (show ¬(0 : Fin S1024x1024.rank) ∈ DL.lhsBatch by decide), dif_pos (show (0 : Fin S1024x1024.rank) ∈ DL.lhsNonContracting by decide)]
  rfl
theorem lhs1 (i : S1024x1024.Idx) (q : DL.contr.Idx) : (DL.lhsIdx i q 1).val = (q ⟨0, by decide⟩).val :=
  DL.lhsIdx_val_of_single rfl i q
theorem rhs0 (i : S1024x1024.Idx) (q : DL.contr.Idx) : (DL.rhsIdx i q 0).val = (q ⟨0, by decide⟩).val :=
  DL.rhsIdx_val_of_single rfl i q
theorem rhs1 (i : S1024x1024.Idx) (q : DL.contr.Idx) : (DL.rhsIdx i q 1).val = (i 1).val := by
  unfold DotDims.rhsIdx
  rw [dif_neg (show ¬(1 : Fin S1024x1024.rank) ∈ DL.rhsBatch by decide), dif_pos (show (1 : Fin S1024x1024.rank) ∈ DL.rhsNonContracting by decide)]
  rfl

/-- A [1024,1024] × [1024,1024] product accumulated from zero, at entry (r, f), is the sum over the shared axis. -/
theorem mm_apply (a : FVec Ideal S1024x1024 .bf16) (b : FVec Ideal S1024x1024 .bf16) (r f : Fin 1024) :
    matmul DL none a b (constant S1024x1024 .f32 0x00000000#32) (ix2 r f) = ∑ e : Fin 1024, a (ix2 r e) * b (ix2 e f) := by
  refine (Ideal.matmul_constant_zero_apply DL none a b (ix2 r f)).trans ?_
  rw [← Equiv.sum_comp (contrEquiv1 DL 1024 rfl rfl).symm]
  refine Finset.sum_congr rfl fun k _ => ?_
  have hk := contrEquiv1_symm_val DL 1024 rfl rfl k
  have el : DL.lhsIdx (ix2 r f) ((contrEquiv1 DL 1024 rfl rfl).symm k) = ix2 r k := funext fun a => Fin.ext (by
    match a with
    | ⟨0, _⟩ => exact lhs0 _ _
    | ⟨1, _⟩ => exact (lhs1 _ _).trans hk)
  have er : DL.rhsIdx (ix2 r f) ((contrEquiv1 DL 1024 rfl rfl).symm k) = ix2 k f := funext fun a => Fin.ext (by
    match a with
    | ⟨0, _⟩ => exact (rhs0 _ _).trans hk
    | ⟨1, _⟩ => exact rhs1 _ _)
  rw [el, er]

/-- The bias row broadcast down the rows, at entry (r, f), is the bias at column f. -/
theorem bias_apply (v : FVec Ideal S1x1024 .f32) (r f : Fin 1024) :
    broadcastTo S1024x1024 v broadcasts_S1x1024_S1024x1024 (ix2 r f) = v (ix2 (0 : Fin 1) f) := by
  refine broadcastTo_apply v broadcasts_S1x1024_S1024x1024 (ix2 r f) (ix2 (0 : Fin 1) f) fun a => ?_
  match a with
  | ⟨0, _⟩ => rfl
  | ⟨1, _⟩ => rfl

/-- The linear kernel's payload at entry (r, f). -/
theorem pay_apply (x0 : Vec Ideal S1024x1024 .f32) (x1 : Vec Ideal S1024x1024 .bf16) (x2 : Vec Ideal S1x1024 .f32) (r f : Fin 1024) :
    k1_pay1 (F := Ideal) x0 x1 x2 (ix2 r f) = (∑ e : Fin 1024, x0 (ix2 r e) * x1 (ix2 e f)) + x2 (ix2 (0 : Fin 1) f) := by
  unfold k1_pay1
  simp only [shapeCast_self]
  refine (addf_apply _ _ (ix2 r f)).trans ?_
  rw [mm_apply, bias_apply]
  rfl

end Cert.LinBody1

end
-- ==== Proof.LinArr1.lean ====
/-
  Region 1 (a linear kernel over four blocks of 1024 rows): what its output array holds when the region ends, as one
  function of the three arrays it reads. Point t reads rows 1024t … 1024t+1023 of the input, the whole transposed
  weights and the whole bias row, and writes back rows 1024t … 1024t+1023 of the output; the four blocks cover the array.
-/
import proofs.«152439_j69595650064719_2_alg».proof.Proof.Gen.KernelIdeal.Frame
import proofs.«152439_j69595650064719_2_alg».proof.Proof.LinBody1
import proofs.«152439_j69595650064719_2_alg».proof.Proof.LinG
import Idealize.ShloMosaic.Lib.Pipeline.Value

set_option maxRecDepth 16384

noncomputable section

namespace Cert.LinArr1

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the four points: the row-blocked windows sit at block (t, 0), the whole ones at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The payload at any index of the block. -/
theorem pay_at (x0 : Vec Ideal S1024x1024 .f32) (x1 : Vec Ideal S1024x1024 .bf16) (x2 : Vec Ideal S1x1024 .f32) (y : S1024x1024.Idx) :
    k1_pay1 (F := Ideal) x0 x1 x2 y = (∑ e : Fin 1024, x0 (ix2 (y 0) e) * x1 (ix2 e (y 1))) + x2 (ix2 (0 : Fin 1) (y 1)) :=
  (congrArg (k1_pay1 (F := Ideal) x0 x1 x2) (eq_ix2 y)).trans (Cert.LinBody1.pay_apply x0 x1 x2 (y 0) (y 1))

/-- The input rows' block at point t is rows 1024t … of the input array. -/
theorem iblk_x (c : Dev nD) (t : Fin cfg1.N) (y : S1024x1024.Idx) (k : S4096x1024.Idx)
    (hk0 : (k 0).val = t.val * 1024 + (y 0).val) (hk1 : (k 1).val = (y 1).val) :
    (iblk1 V c 0 t : Vec Ideal S1024x1024 .f32) y = (V c main_v1 : S4096x1024.Idx → EReal) k := by
  obtain ⟨e0, e1, -⟩ := idx_facts t
  unfold iblk1
  rw [View.read_apply]
  show V c main_v1 _ = V c main_v1 _
  refine congrArg _ (funext fun a => Fin.ext ?_)
  match a with
  | ⟨0, _⟩ => show win1_0.index t 0 * 1024 + 1 * (y 0).val = (k 0).val; rw [e0, hk0]; omega
  | ⟨1, _⟩ => show win1_0.index t 1 * 1024 + 1 * (y 1).val = (k 1).val; rw [e1, hk1]; omega

/-- The weights' block at every point is the whole transposed-weights array. -/
theorem iblk_w (c : Dev nD) (t : Fin cfg1.N) (y : S1024x1024.Idx) :
    (iblk1 V c 1 t : Vec Ideal S1024x1024 .bf16) y = (V c main_v9 : S1024x1024.Idx → EReal) y := by
  obtain ⟨-, -, e2, e3, -⟩ := idx_facts t
  unfold iblk1
  rw [View.read_apply]
  show V c main_v9 _ = V c main_v9 _
  refine congrArg _ (funext fun a => Fin.ext ?_)
  match a with
  | ⟨0, _⟩ => show win1_1.index t 0 * 1024 + 1 * (y 0).val = (y 0).val; rw [e2]; omega
  | ⟨1, _⟩ => show win1_1.index t 1 * 1024 + 1 * (y 1).val = (y 1).val; rw [e3]; omega

/-- The bias block at every point is the whole bias row. -/
theorem iblk_b (c : Dev nD) (t : Fin cfg1.N) (y : S1x1024.Idx) :
    (iblk1 V c 2 t : Vec Ideal S1x1024 .f32) y = (V c main_v10 : S1x1024.Idx → EReal) y := by
  obtain ⟨-, -, -, -, e4, e5, -⟩ := idx_facts t
  unfold iblk1
  rw [View.read_apply]
  show V c main_v10 _ = V c main_v10 _
  refine congrArg _ (funext fun a => Fin.ext ?_)
  match a with
  | ⟨0, _⟩ => show win1_2.index t 0 * 1 + 1 * (y 0).val = (y 0).val; rw [e4]; omega
  | ⟨1, _⟩ => show win1_2.index t 1 * 1024 + 1 * (y 1).val = (y 1).val; rw [e5]; omega

/-- What point t writes back is block t of the linear layer of the three arrays as the region finds them. -/
theorem flushed_eq (c : Dev nD) (t : Fin cfg1.N) :
    (dat1 V c).flushed 3 t = ((cfg1.win 3).blk t).view.read (Elt Ideal)
      (Attn.linG (V c main_v1) (V c main_v9) (V c main_v10)) := by
  show (cfg1.win 3).cut (grid1.coords t) ((dat1 V c).after 3 t) = _
  rw [after1_3]
  unfold out1_3
  rw [View.canon_unit_zero hz]
  simp only [View.ld_unit_zero (S := S1024x1024) hz, View.ld_unit_zero (S := S1x1024) hz]
  obtain ⟨-, -, -, -, -, -, e6, e7⟩ := idx_facts t
  funext j
  show k1_pay1 (F := Ideal) (iblk1 V c 0 t) (iblk1 V c 1 t) (iblk1 V c 2 t) j
    = Attn.linG (V c main_v1) (V c main_v9) (V c main_v10) (((cfg1.win 3).blk t).view.emb j)
  refine (pay_at _ _ _ j).trans ?_
  have h0 : ((((cfg1.win 3).blk t).view.emb j) 0).val = t.val * 1024 + (j 0).val := by
    show win1_3.index t 0 * 1024 + 1 * (j 0).val = _; rw [e6]; omega
  have h1 : ((((cfg1.win 3).blk t).view.emb j) 1).val = (j 1).val := by
    show win1_3.index t 1 * 1024 + 1 * (j 1).val = _; rw [e7]; omega
  unfold Attn.linG
  refine congrArg₂ (· + ·) (Finset.sum_congr rfl fun e _ => congrArg₂ (· * ·) ?_ ?_) ?_
  · exact iblk_x V c t _ _ h0 rfl
  · refine (iblk_w V c t _).trans (congrArg _ (funext fun a => Fin.ext ?_))
    match a with
    | ⟨0, _⟩ => rfl
    | ⟨1, _⟩ => exact h1.symm
  · refine (iblk_b V c t _).trans (congrArg _ (funext fun a => Fin.ext ?_))
    match a with
    | ⟨0, _⟩ => rfl
    | ⟨1, _⟩ => exact h1.symm

/-- An index of the output array lies in point t's block iff each coordinate lies in the block's range. -/
theorem mem_blk (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v11).slice (win1_3.rect t)).set ↔ _
  rw [View.set_slice_whole, Rect.mem_set_unit]
  exact Iff.rfl

/-- The output array when the region ends: the linear layer of the three arrays it reads. -/
theorem final (c : Dev nD) : (dat1 V c).arrAt 3 cfg1.N = Attn.linG (V c main_v1) (V c main_v9) (V c main_v10) :=
  (dat1 V c).arrAt_eq_of_cover 3 _ (fun t _ => flushed_eq V c t) fun i => by
    have hi0 : (i 0).val < 4096 := (i 0).isLt
    have hi1 : (i 1).val < 1024 := (i 1).isLt
    have hN : cfg1.N = 4 := N_1
    let t : Fin cfg1.N := ⟨(i 0).val / 1024, by rw [hN]; omega⟩
    obtain ⟨-, -, -, -, -, -, e6, e7⟩ := idx_facts t
    refine ⟨t, flush1_3 t, ?_⟩
    rw [mem_blk]
    intro a
    match a with
    | ⟨0, _⟩ => show win1_3.index t 0 * 1024 ≤ (i 0).val ∧ (i 0).val < win1_3.index t 0 * 1024 + 1024; rw [e6]; show (i 0).val / 1024 * 1024 ≤ _ ∧ _ < (i 0).val / 1024 * 1024 + 1024; omega
    | ⟨1, _⟩ => show win1_3.index t 1 * 1024 ≤ (i 1).val ∧ (i 1).val < win1_3.index t 1 * 1024 + 1024; rw [e7]; omega

end Cert.LinArr1

end
-- ==== Proof.LinBody2.lean ====
/-
  The linear kernel's arithmetic at one entry. Its payload is a matrix product of a [1024,1024] block of rows with
  the [1024,1024] transposed weights, accumulated from zero, plus the bias row broadcast down the rows; at the
  extended reals (roundings the identity) entry (r, f) is (Σ_e x[r,e] · w[e,f]) + bias[0,f].
-/
import proofs.«152439_j69595650064719_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.LinBody2

open Idealize.ShloMosaic Idealize.ShloMosaic.ValueIdx Cert.KernelIdeal Cert.KernelIdeal.Gen
open scoped BigOperators

/-- The product's dimension record: rows of the left against columns of the right. -/
abbrev DL := dot_S1024x1024_S1024x1024_S1024x1024_1_0_0_1_n_n

theorem lhs0 (i : S1024x1024.Idx) (q : DL.contr.Idx) : (DL.lhsIdx i q 0).val = (i 0).val := by
  unfold DotDims.lhsIdx
  rw [dif_neg (show ¬(0 : Fin S1024x1024.rank) ∈ DL.lhsBatch by decide), dif_pos (show (0 : Fin S1024x1024.rank) ∈ DL.lhsNonContracting by decide)]
  rfl
theorem lhs1 (i : S1024x1024.Idx) (q : DL.contr.Idx) : (DL.lhsIdx i q 1).val = (q ⟨0, by decide⟩).val :=
  DL.lhsIdx_val_of_single rfl i q
theorem rhs0 (i : S1024x1024.Idx) (q : DL.contr.Idx) : (DL.rhsIdx i q 0).val = (q ⟨0, by decide⟩).val :=
  DL.rhsIdx_val_of_single rfl i q
theorem rhs1 (i : S1024x1024.Idx) (q : DL.contr.Idx) : (DL.rhsIdx i q 1).val = (i 1).val := by
  unfold DotDims.rhsIdx
  rw [dif_neg (show ¬(1 : Fin S1024x1024.rank) ∈ DL.rhsBatch by decide), dif_pos (show (1 : Fin S1024x1024.rank) ∈ DL.rhsNonContracting by decide)]
  rfl

/-- A [1024,1024] × [1024,1024] product accumulated from zero, at entry (r, f), is the sum over the shared axis. -/
theorem mm_apply (a : FVec Ideal S1024x1024 .bf16) (b : FVec Ideal S1024x1024 .bf16) (r f : Fin 1024) :
    matmul DL none a b (constant S1024x1024 .f32 0x00000000#32) (ix2 r f) = ∑ e : Fin 1024, a (ix2 r e) * b (ix2 e f) := by
  refine (Ideal.matmul_constant_zero_apply DL none a b (ix2 r f)).trans ?_
  rw [← Equiv.sum_comp (contrEquiv1 DL 1024 rfl rfl).symm]
  refine Finset.sum_congr rfl fun k _ => ?_
  have hk := contrEquiv1_symm_val DL 1024 rfl rfl k
  have el : DL.lhsIdx (ix2 r f) ((contrEquiv1 DL 1024 rfl rfl).symm k) = ix2 r k := funext fun a => Fin.ext (by
    match a with
    | ⟨0, _⟩ => exact lhs0 _ _
    | ⟨1, _⟩ => exact (lhs1 _ _).trans hk)
  have er : DL.rhsIdx (ix2 r f) ((contrEquiv1 DL 1024 rfl rfl).symm k) = ix2 k f := funext fun a => Fin.ext (by
    match a with
    | ⟨0, _⟩ => exact (rhs0 _ _).trans hk
    | ⟨1, _⟩ => exact rhs1 _ _)
  rw [el, er]

/-- The bias row broadcast down the rows, at entry (r, f), is the bias at column f. -/
theorem bias_apply (v : FVec Ideal S1x1024 .f32) (r f : Fin 1024) :
    broadcastTo S1024x1024 v broadcasts_S1x1024_S1024x1024 (ix2 r f) = v (ix2 (0 : Fin 1) f) := by
  refine broadcastTo_apply v broadcasts_S1x1024_S1024x1024 (ix2 r f) (ix2 (0 : Fin 1) f) fun a => ?_
  match a with
  | ⟨0, _⟩ => rfl
  | ⟨1, _⟩ => rfl

/-- The linear kernel's payload at entry (r, f). -/
theorem pay_apply (x0 : Vec Ideal S1024x1024 .f32) (x1 : Vec Ideal S1024x1024 .bf16) (x2 : Vec Ideal S1x1024 .f32) (r f : Fin 1024) :
    k2_pay1 (F := Ideal) x0 x1 x2 (ix2 r f) = (∑ e : Fin 1024, x0 (ix2 r e) * x1 (ix2 e f)) + x2 (ix2 (0 : Fin 1) f) := by
  unfold k2_pay1
  simp only [shapeCast_self]
  refine (addf_apply _ _ (ix2 r f)).trans ?_
  rw [mm_apply, bias_apply]
  rfl

end Cert.LinBody2

end
-- ==== Proof.LinArr2.lean ====
/-
  Region 2 (a linear kernel over four blocks of 1024 rows): what its output array holds when the region ends, as one
  function of the three arrays it reads. Point t reads rows 1024t … 1024t+1023 of the input, the whole transposed
  weights and the whole bias row, and writes back rows 1024t … 1024t+1023 of the output; the four blocks cover the array.
-/
import proofs.«152439_j69595650064719_2_alg».proof.Proof.Gen.KernelIdeal.Frame
import proofs.«152439_j69595650064719_2_alg».proof.Proof.LinBody2
import proofs.«152439_j69595650064719_2_alg».proof.Proof.LinG
import Idealize.ShloMosaic.Lib.Pipeline.Value

set_option maxRecDepth 16384

noncomputable section

namespace Cert.LinArr2

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the four points: the row-blocked windows sit at block (t, 0), the whole ones at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The payload at any index of the block. -/
theorem pay_at (x0 : Vec Ideal S1024x1024 .f32) (x1 : Vec Ideal S1024x1024 .bf16) (x2 : Vec Ideal S1x1024 .f32) (y : S1024x1024.Idx) :
    k2_pay1 (F := Ideal) x0 x1 x2 y = (∑ e : Fin 1024, x0 (ix2 (y 0) e) * x1 (ix2 e (y 1))) + x2 (ix2 (0 : Fin 1) (y 1)) :=
  (congrArg (k2_pay1 (F := Ideal) x0 x1 x2) (eq_ix2 y)).trans (Cert.LinBody2.pay_apply x0 x1 x2 (y 0) (y 1))

/-- The input rows' block at point t is rows 1024t … of the input array. -/
theorem iblk_x (c : Dev nD) (t : Fin cfg2.N) (y : S1024x1024.Idx) (k : S4096x1024.Idx)
    (hk0 : (k 0).val = t.val * 1024 + (y 0).val) (hk1 : (k 1).val = (y 1).val) :
    (iblk2 V c 0 t : Vec Ideal S1024x1024 .f32) y = (V c main_v2 : S4096x1024.Idx → EReal) k := by
  obtain ⟨e0, e1, -⟩ := idx_facts t
  unfold iblk2
  rw [View.read_apply]
  show V c main_v2 _ = V c main_v2 _
  refine congrArg _ (funext fun a => Fin.ext ?_)
  match a with
  | ⟨0, _⟩ => show win2_0.index t 0 * 1024 + 1 * (y 0).val = (k 0).val; rw [e0, hk0]; omega
  | ⟨1, _⟩ => show win2_0.index t 1 * 1024 + 1 * (y 1).val = (k 1).val; rw [e1, hk1]; omega

/-- The weights' block at every point is the whole transposed-weights array. -/
theorem iblk_w (c : Dev nD) (t : Fin cfg2.N) (y : S1024x1024.Idx) :
    (iblk2 V c 1 t : Vec Ideal S1024x1024 .bf16) y = (V c main_v14 : S1024x1024.Idx → EReal) y := by
  obtain ⟨-, -, e2, e3, -⟩ := idx_facts t
  unfold iblk2
  rw [View.read_apply]
  show V c main_v14 _ = V c main_v14 _
  refine congrArg _ (funext fun a => Fin.ext ?_)
  match a with
  | ⟨0, _⟩ => show win2_1.index t 0 * 1024 + 1 * (y 0).val = (y 0).val; rw [e2]; omega
  | ⟨1, _⟩ => show win2_1.index t 1 * 1024 + 1 * (y 1).val = (y 1).val; rw [e3]; omega

/-- The bias block at every point is the whole bias row. -/
theorem iblk_b (c : Dev nD) (t : Fin cfg2.N) (y : S1x1024.Idx) :
    (iblk2 V c 2 t : Vec Ideal S1x1024 .f32) y = (V c main_v15 : S1x1024.Idx → EReal) y := by
  obtain ⟨-, -, -, -, e4, e5, -⟩ := idx_facts t
  unfold iblk2
  rw [View.read_apply]
  show V c main_v15 _ = V c main_v15 _
  refine congrArg _ (funext fun a => Fin.ext ?_)
  match a with
  | ⟨0, _⟩ => show win2_2.index t 0 * 1 + 1 * (y 0).val = (y 0).val; rw [e4]; omega
  | ⟨1, _⟩ => show win2_2.index t 1 * 1024 + 1 * (y 1).val = (y 1).val; rw [e5]; omega

/-- What point t writes back is block t of the linear layer of the three arrays as the region finds them. -/
theorem flushed_eq (c : Dev nD) (t : Fin cfg2.N) :
    (dat2 V c).flushed 3 t = ((cfg2.win 3).blk t).view.read (Elt Ideal)
      (Attn.linG (V c main_v2) (V c main_v14) (V c main_v15)) := by
  show (cfg2.win 3).cut (grid2.coords t) ((dat2 V c).after 3 t) = _
  rw [after2_3]
  unfold out2_3
  rw [View.canon_unit_zero hz]
  simp only [View.ld_unit_zero (S := S1024x1024) hz, View.ld_unit_zero (S := S1x1024) hz]
  obtain ⟨-, -, -, -, -, -, e6, e7⟩ := idx_facts t
  funext j
  show k2_pay1 (F := Ideal) (iblk2 V c 0 t) (iblk2 V c 1 t) (iblk2 V c 2 t) j
    = Attn.linG (V c main_v2) (V c main_v14) (V c main_v15) (((cfg2.win 3).blk t).view.emb j)
  refine (pay_at _ _ _ j).trans ?_
  have h0 : ((((cfg2.win 3).blk t).view.emb j) 0).val = t.val * 1024 + (j 0).val := by
    show win2_3.index t 0 * 1024 + 1 * (j 0).val = _; rw [e6]; omega
  have h1 : ((((cfg2.win 3).blk t).view.emb j) 1).val = (j 1).val := by
    show win2_3.index t 1 * 1024 + 1 * (j 1).val = _; rw [e7]; omega
  unfold Attn.linG
  refine congrArg₂ (· + ·) (Finset.sum_congr rfl fun e _ => congrArg₂ (· * ·) ?_ ?_) ?_
  · exact iblk_x V c t _ _ h0 rfl
  · refine (iblk_w V c t _).trans (congrArg _ (funext fun a => Fin.ext ?_))
    match a with
    | ⟨0, _⟩ => rfl
    | ⟨1, _⟩ => exact h1.symm
  · refine (iblk_b V c t _).trans (congrArg _ (funext fun a => Fin.ext ?_))
    match a with
    | ⟨0, _⟩ => rfl
    | ⟨1, _⟩ => exact h1.symm

/-- An index of the output array lies in point t's block iff each coordinate lies in the block's range. -/
theorem mem_blk (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v16).slice (win2_3.rect t)).set ↔ _
  rw [View.set_slice_whole, Rect.mem_set_unit]
  exact Iff.rfl

/-- The output array when the region ends: the linear layer of the three arrays it reads. -/
theorem final (c : Dev nD) : (dat2 V c).arrAt 3 cfg2.N = Attn.linG (V c main_v2) (V c main_v14) (V c main_v15) :=
  (dat2 V c).arrAt_eq_of_cover 3 _ (fun t _ => flushed_eq V c t) fun i => by
    have hi0 : (i 0).val < 4096 := (i 0).isLt
    have hi1 : (i 1).val < 1024 := (i 1).isLt
    have hN : cfg2.N = 4 := N_2
    let t : Fin cfg2.N := ⟨(i 0).val / 1024, by rw [hN]; omega⟩
    obtain ⟨-, -, -, -, -, -, e6, e7⟩ := idx_facts t
    refine ⟨t, flush2_3 t, ?_⟩
    rw [mem_blk]
    intro a
    match a with
    | ⟨0, _⟩ => show win2_3.index t 0 * 1024 ≤ (i 0).val ∧ (i 0).val < win2_3.index t 0 * 1024 + 1024; rw [e6]; show (i 0).val / 1024 * 1024 ≤ _ ∧ _ < (i 0).val / 1024 * 1024 + 1024; omega
    | ⟨1, _⟩ => show win2_3.index t 1 * 1024 ≤ (i 1).val ∧ (i 1).val < win2_3.index t 1 * 1024 + 1024; rw [e7]; omega

end Cert.LinArr2

end
-- ==== Proof.LinBody4.lean ====
/-
  The linear kernel's arithmetic at one entry. Its payload is a matrix product of a [1024,1024] block of rows with
  the [1024,1024] transposed weights, accumulated from zero, plus the bias row broadcast down the rows; at the
  extended reals (roundings the identity) entry (r, f) is (Σ_e x[r,e] · w[e,f]) + bias[0,f].
-/
import proofs.«152439_j69595650064719_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.LinBody4

open Idealize.ShloMosaic Idealize.ShloMosaic.ValueIdx Cert.KernelIdeal Cert.KernelIdeal.Gen
open scoped BigOperators

/-- The product's dimension record: rows of the left against columns of the right. -/
abbrev DL := dot_S1024x1024_S1024x1024_S1024x1024_1_0_0_1_n_n

theorem lhs0 (i : S1024x1024.Idx) (q : DL.contr.Idx) : (DL.lhsIdx i q 0).val = (i 0).val := by
  unfold DotDims.lhsIdx
  rw [dif_neg (show ¬(0 : Fin S1024x1024.rank) ∈ DL.lhsBatch by decide), dif_pos (show (0 : Fin S1024x1024.rank) ∈ DL.lhsNonContracting by decide)]
  rfl
theorem lhs1 (i : S1024x1024.Idx) (q : DL.contr.Idx) : (DL.lhsIdx i q 1).val = (q ⟨0, by decide⟩).val :=
  DL.lhsIdx_val_of_single rfl i q
theorem rhs0 (i : S1024x1024.Idx) (q : DL.contr.Idx) : (DL.rhsIdx i q 0).val = (q ⟨0, by decide⟩).val :=
  DL.rhsIdx_val_of_single rfl i q
theorem rhs1 (i : S1024x1024.Idx) (q : DL.contr.Idx) : (DL.rhsIdx i q 1).val = (i 1).val := by
  unfold DotDims.rhsIdx
  rw [dif_neg (show ¬(1 : Fin S1024x1024.rank) ∈ DL.rhsBatch by decide), dif_pos (show (1 : Fin S1024x1024.rank) ∈ DL.rhsNonContracting by decide)]
  rfl

/-- A [1024,1024] × [1024,1024] product accumulated from zero, at entry (r, f), is the sum over the shared axis. -/
theorem mm_apply (a : FVec Ideal S1024x1024 .bf16) (b : FVec Ideal S1024x1024 .bf16) (r f : Fin 1024) :
    matmul DL none a b (constant S1024x1024 .f32 0x00000000#32) (ix2 r f) = ∑ e : Fin 1024, a (ix2 r e) * b (ix2 e f) := by
  refine (Ideal.matmul_constant_zero_apply DL none a b (ix2 r f)).trans ?_
  rw [← Equiv.sum_comp (contrEquiv1 DL 1024 rfl rfl).symm]
  refine Finset.sum_congr rfl fun k _ => ?_
  have hk := contrEquiv1_symm_val DL 1024 rfl rfl k
  have el : DL.lhsIdx (ix2 r f) ((contrEquiv1 DL 1024 rfl rfl).symm k) = ix2 r k := funext fun a => Fin.ext (by
    match a with
    | ⟨0, _⟩ => exact lhs0 _ _
    | ⟨1, _⟩ => exact (lhs1 _ _).trans hk)
  have er : DL.rhsIdx (ix2 r f) ((contrEquiv1 DL 1024 rfl rfl).symm k) = ix2 k f := funext fun a => Fin.ext (by
    match a with
    | ⟨0, _⟩ => exact (rhs0 _ _).trans hk
    | ⟨1, _⟩ => exact rhs1 _ _)
  rw [el, er]

/-- The bias row broadcast down the rows, at entry (r, f), is the bias at column f. -/
theorem bias_apply (v : FVec Ideal S1x1024 .f32) (r f : Fin 1024) :
    broadcastTo S1024x1024 v broadcasts_S1x1024_S1024x1024 (ix2 r f) = v (ix2 (0 : Fin 1) f) := by
  refine broadcastTo_apply v broadcasts_S1x1024_S1024x1024 (ix2 r f) (ix2 (0 : Fin 1) f) fun a => ?_
  match a with
  | ⟨0, _⟩ => rfl
  | ⟨1, _⟩ => rfl

/-- The linear kernel's payload at entry (r, f). -/
theorem pay_apply (x0 : Vec Ideal S1024x1024 .f32) (x1 : Vec Ideal S1024x1024 .bf16) (x2 : Vec Ideal S1x1024 .f32) (r f : Fin 1024) :
    k4_pay1 (F := Ideal) x0 x1 x2 (ix2 r f) = (∑ e : Fin 1024, x0 (ix2 r e) * x1 (ix2 e f)) + x2 (ix2 (0 : Fin 1) f) := by
  unfold k4_pay1
  simp only [shapeCast_self]
  refine (addf_apply _ _ (ix2 r f)).trans ?_
  rw [mm_apply, bias_apply]
  rfl

end Cert.LinBody4

end
-- ==== Proof.LinArr4.lean ====
/-
  Region 4 (a linear kernel over four blocks of 1024 rows): what its output array holds when the region ends, as one
  function of the three arrays it reads. Point t reads rows 1024t … 1024t+1023 of the input, the whole transposed
  weights and the whole bias row, and writes back rows 1024t … 1024t+1023 of the output; the four blocks cover the array.
-/
import proofs.«152439_j69595650064719_2_alg».proof.Proof.Gen.KernelIdeal.Frame
import proofs.«152439_j69595650064719_2_alg».proof.Proof.LinBody4
import proofs.«152439_j69595650064719_2_alg».proof.Proof.LinG
import Idealize.ShloMosaic.Lib.Pipeline.Value

set_option maxRecDepth 16384

noncomputable section

namespace Cert.LinArr4

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the four points: the row-blocked windows sit at block (t, 0), the whole ones at (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The payload at any index of the block. -/
theorem pay_at (x0 : Vec Ideal S1024x1024 .f32) (x1 : Vec Ideal S1024x1024 .bf16) (x2 : Vec Ideal S1x1024 .f32) (y : S1024x1024.Idx) :
    k4_pay1 (F := Ideal) x0 x1 x2 y = (∑ e : Fin 1024, x0 (ix2 (y 0) e) * x1 (ix2 e (y 1))) + x2 (ix2 (0 : Fin 1) (y 1)) :=
  (congrArg (k4_pay1 (F := Ideal) x0 x1 x2) (eq_ix2 y)).trans (Cert.LinBody4.pay_apply x0 x1 x2 (y 0) (y 1))

/-- The input rows' block at point t is rows 1024t … of the input array. -/
theorem iblk_x (c : Dev nD) (t : Fin cfg4.N) (y : S1024x1024.Idx) (k : S4096x1024.Idx)
    (hk0 : (k 0).val = t.val * 1024 + (y 0).val) (hk1 : (k 1).val = (y 1).val) :
    (iblk4 V c 0 t : Vec Ideal S1024x1024 .f32) y = (V c main_v19 : S4096x1024.Idx → EReal) k := by
  obtain ⟨e0, e1, -⟩ := idx_facts t
  unfold iblk4
  rw [View.read_apply]
  show V c main_v19 _ = V c main_v19 _
  refine congrArg _ (funext fun a => Fin.ext ?_)
  match a with
  | ⟨0, _⟩ => show win4_0.index t 0 * 1024 + 1 * (y 0).val = (k 0).val; rw [e0, hk0]; omega
  | ⟨1, _⟩ => show win4_0.index t 1 * 1024 + 1 * (y 1).val = (k 1).val; rw [e1, hk1]; omega

/-- The weights' block at every point is the whole transposed-weights array. -/
theorem iblk_w (c : Dev nD) (t : Fin cfg4.N) (y : S1024x1024.Idx) :
    (iblk4 V c 1 t : Vec Ideal S1024x1024 .bf16) y = (V c main_v21 : S1024x1024.Idx → EReal) y := by
  obtain ⟨-, -, e2, e3, -⟩ := idx_facts t
  unfold iblk4
  rw [View.read_apply]
  show V c main_v21 _ = V c main_v21 _
  refine congrArg _ (funext fun a => Fin.ext ?_)
  match a with
  | ⟨0, _⟩ => show win4_1.index t 0 * 1024 + 1 * (y 0).val = (y 0).val; rw [e2]; omega
  | ⟨1, _⟩ => show win4_1.index t 1 * 1024 + 1 * (y 1).val = (y 1).val; rw [e3]; omega

/-- The bias block at every point is the whole bias row. -/
theorem iblk_b (c : Dev nD) (t : Fin cfg4.N) (y : S1x1024.Idx) :
    (iblk4 V c 2 t : Vec Ideal S1x1024 .f32) y = (V c main_v22 : S1x1024.Idx → EReal) y := by
  obtain ⟨-, -, -, -, e4, e5, -⟩ := idx_facts t
  unfold iblk4
  rw [View.read_apply]
  show V c main_v22 _ = V c main_v22 _
  refine congrArg _ (funext fun a => Fin.ext ?_)
  match a with
  | ⟨0, _⟩ => show win4_2.index t 0 * 1 + 1 * (y 0).val = (y 0).val; rw [e4]; omega
  | ⟨1, _⟩ => show win4_2.index t 1 * 1024 + 1 * (y 1).val = (y 1).val; rw [e5]; omega

/-- What point t writes back is block t of the linear layer of the three arrays as the region finds them. -/
theorem flushed_eq (c : Dev nD) (t : Fin cfg4.N) :
    (dat4 V c).flushed 3 t = ((cfg4.win 3).blk t).view.read (Elt Ideal)
      (Attn.linG (V c main_v19) (V c main_v21) (V c main_v22)) := by
  show (cfg4.win 3).cut (grid4.coords t) ((dat4 V c).after 3 t) = _
  rw [after4_3]
  unfold out4_3
  rw [View.canon_unit_zero hz]
  simp only [View.ld_unit_zero (S := S1024x1024) hz, View.ld_unit_zero (S := S1x1024) hz]
  obtain ⟨-, -, -, -, -, -, e6, e7⟩ := idx_facts t
  funext j
  show k4_pay1 (F := Ideal) (iblk4 V c 0 t) (iblk4 V c 1 t) (iblk4 V c 2 t) j
    = Attn.linG (V c main_v19) (V c main_v21) (V c main_v22) (((cfg4.win 3).blk t).view.emb j)
  refine (pay_at _ _ _ j).trans ?_
  have h0 : ((((cfg4.win 3).blk t).view.emb j) 0).val = t.val * 1024 + (j 0).val := by
    show win4_3.index t 0 * 1024 + 1 * (j 0).val = _; rw [e6]; omega
  have h1 : ((((cfg4.win 3).blk t).view.emb j) 1).val = (j 1).val := by
    show win4_3.index t 1 * 1024 + 1 * (j 1).val = _; rw [e7]; omega
  unfold Attn.linG
  refine congrArg₂ (· + ·) (Finset.sum_congr rfl fun e _ => congrArg₂ (· * ·) ?_ ?_) ?_
  · exact iblk_x V c t _ _ h0 rfl
  · refine (iblk_w V c t _).trans (congrArg _ (funext fun a => Fin.ext ?_))
    match a with
    | ⟨0, _⟩ => rfl
    | ⟨1, _⟩ => exact h1.symm
  · refine (iblk_b V c t _).trans (congrArg _ (funext fun a => Fin.ext ?_))
    match a with
    | ⟨0, _⟩ => rfl
    | ⟨1, _⟩ => exact h1.symm

/-- An index of the output array lies in point t's block iff each coordinate lies in the block's range. -/
theorem mem_blk (t : Fin cfg4.N) (i : S4096x1024.Idx) :
    i ∈ ((cfg4.win 3).blk t).view.set ↔ ∀ a : Fin 2, win4_3.index t a * S1024x1024.size a ≤ (i a).val ∧ (i a).val < win4_3.index t a * S1024x1024.size a + S1024x1024.size a := by
  show i ∈ ((View.whole main_v23).slice (win4_3.rect t)).set ↔ _
  rw [View.set_slice_whole, Rect.mem_set_unit]
  exact Iff.rfl

/-- The output array when the region ends: the linear layer of the three arrays it reads. -/
theorem final (c : Dev nD) : (dat4 V c).arrAt 3 cfg4.N = Attn.linG (V c main_v19) (V c main_v21) (V c main_v22) :=
  (dat4 V c).arrAt_eq_of_cover 3 _ (fun t _ => flushed_eq V c t) fun i => by
    have hi0 : (i 0).val < 4096 := (i 0).isLt
    have hi1 : (i 1).val < 1024 := (i 1).isLt
    have hN : cfg4.N = 4 := N_4
    let t : Fin cfg4.N := ⟨(i 0).val / 1024, by rw [hN]; omega⟩
    obtain ⟨-, -, -, -, -, -, e6, e7⟩ := idx_facts t
    refine ⟨t, flush4_3 t, ?_⟩
    rw [mem_blk]
    intro a
    match a with
    | ⟨0, _⟩ => show win4_3.index t 0 * 1024 ≤ (i 0).val ∧ (i 0).val < win4_3.index t 0 * 1024 + 1024; rw [e6]; show (i 0).val / 1024 * 1024 ≤ _ ∧ _ < (i 0).val / 1024 * 1024 + 1024; omega
    | ⟨1, _⟩ => show win4_3.index t 1 * 1024 ≤ (i 1).val ∧ (i 1).val < win4_3.index t 1 * 1024 + 1024; rw [e7]; omega

end Cert.LinArr4

end
-- ==== Proof.AttnArr.lean ====
/-
  Region 3 (the attention kernel over a 4 × 8 grid: batch b, pair of heads hp): what its two output arrays hold when
  the region ends, as functions of the three projected arrays it reads. Point (b, hp) reads rows of batch b and the 128
  columns 128hp … 128hp+127 of the queries, keys and values (heads 2hp and 2hp+1), writes back the same columns of
  the context and the two heads' [1024,1024] weight matrices; the 32 blocks cover both arrays.
  The body's arithmetic at an entry is taken as two hypotheses (the softmax of the scaled scores; its product with
  the values), stated on the blocks alone.
-/
import proofs.«152439_j69595650064719_2_alg».proof.Proof.Gen.KernelIdeal.Frame
import proofs.«152439_j69595650064719_2_alg».proof.Proof.Spec
import Idealize.ShloMosaic.Lib.Pipeline.Value

set_option maxRecDepth 16384

noncomputable section

namespace Cert.AttnArr

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The body's weights block at an entry: the softmax over key rows of the scaled scores of one head of the pair. -/
def BodyW : Prop := ∀ (x0 x1 x2 : Vec Ideal S1x1024x128 .f32) (hh : Fin 2) (q k : Fin 1024),
  out3_4 (F := Ideal) x0 x1 x2 (ix4 (0 : Fin 1) hh q k)
    = Attn.softmaxRow (fun k' => (∑ d' : Fin 64, x0 (ix3 (0 : Fin 1) q (Attn.col hh d')) * x1 (ix3 (0 : Fin 1) k' (Attn.col hh d'))) * Attn.scale) k

/-- The body's context block at an entry: those weights against the head's value columns. -/
def BodyC : Prop := ∀ (x0 x1 x2 : Vec Ideal S1x1024x128 .f32) (q : Fin 1024) (hh : Fin 2) (d : Fin 64),
  out3_3 (F := Ideal) x0 x1 x2 (ix3 (0 : Fin 1) q (Attn.col hh d))
    = ∑ k : Fin 1024, Attn.softmaxRow (fun k' => (∑ d' : Fin 64, x0 (ix3 (0 : Fin 1) q (Attn.col hh d')) * x1 (ix3 (0 : Fin 1) k' (Attn.col hh d'))) * Attn.scale) k
        * x2 (ix3 (0 : Fin 1) k (Attn.col hh d))

/-- The printed index maps over the 32 points: point t is batch t / 8, pair of heads t % 8. -/
theorem idx_facts : ∀ t : Fin cfg3.N,
    (win3_0.index t (0 : Fin 3) = t.val / 8 ∧ win3_0.index t (1 : Fin 3) = 0 ∧ win3_0.index t (2 : Fin 3) = t.val % 8)
    ∧ (win3_1.index t (0 : Fin 3) = t.val / 8 ∧ win3_1.index t (1 : Fin 3) = 0 ∧ win3_1.index t (2 : Fin 3) = t.val % 8)
    ∧ (win3_2.index t (0 : Fin 3) = t.val / 8 ∧ win3_2.index t (1 : Fin 3) = 0 ∧ win3_2.index t (2 : Fin 3) = t.val % 8)
    ∧ (win3_3.index t (0 : Fin 3) = t.val / 8 ∧ win3_3.index t (1 : Fin 3) = 0 ∧ win3_3.index t (2 : Fin 3) = t.val % 8)
    ∧ (win3_4.index t (0 : Fin 4) = t.val / 8 ∧ win3_4.index t (1 : Fin 4) = t.val % 8 ∧ win3_4.index t (2 : Fin 4) = 0 ∧ win3_4.index t (3 : Fin 4) = 0) :=
  (by decide +kernel : ∀ t : Fin grid3.N, _)

/-- The queries' block at point t: batch t / 8, columns 128 (t % 8) … . -/
theorem iblk_q (c : Dev nD) (t : Fin cfg3.N) (y : S1x1024x128.Idx) (k : S4x1024x1024.Idx)
    (hk0 : (k 0).val = t.val / 8) (hk1 : (k 1).val = (y 1).val) (hk2 : (k 2).val = t.val % 8 * 128 + (y 2).val) :
    (iblk3 V c 0 t : Vec Ideal S1x1024x128 .f32) y = (V c main_v7 : S4x1024x1024.Idx → EReal) k := by
  obtain ⟨⟨e0, e1, e2⟩, -⟩ := idx_facts t
  have hy0 : (y 0).val < 1 := (y 0).isLt
  unfold iblk3
  rw [View.read_apply]
  show V c main_v7 _ = V c main_v7 _
  refine congrArg _ (funext fun a => Fin.ext ?_)
  match a with
  | ⟨0, _⟩ => show win3_0.index t 0 * 1 + 1 * (y 0).val = (k 0).val; rw [e0, hk0]; omega
  | ⟨1, _⟩ => show win3_0.index t 1 * 1024 + 1 * (y 1).val = (k 1).val; rw [e1, hk1]; omega
  | ⟨2, _⟩ => show win3_0.index t 2 * 128 + 1 * (y 2).val = (k 2).val; rw [e2, hk2]; omega

/-- The keys' block at point t. -/
theorem iblk_k (c : Dev nD) (t : Fin cfg3.N) (y : S1x1024x128.Idx) (k : S4x1024x1024.Idx)
    (hk0 : (k 0).val = t.val / 8) (hk1 : (k 1).val = (y 1).val) (hk2 : (k 2).val = t.val % 8 * 128 + (y 2).val) :
    (iblk3 V c 1 t : Vec Ideal S1x1024x128 .f32) y = (V c main_v12 : S4x1024x1024.Idx → EReal) k := by
  obtain ⟨-, ⟨e0, e1, e2⟩, -⟩ := idx_facts t
  have hy0 : (y 0).val < 1 := (y 0).isLt
  unfold iblk3
  rw [View.read_apply]
  show V c main_v12 _ = V c main_v12 _
  refine congrArg _ (funext fun a => Fin.ext ?_)
  match a with
  | ⟨0, _⟩ => show win3_1.index t 0 * 1 + 1 * (y 0).val = (k 0).val; rw [e0, hk0]; omega
  | ⟨1, _⟩ => show win3_1.index t 1 * 1024 + 1 * (y 1).val = (k 1).val; rw [e1, hk1]; omega
  | ⟨2, _⟩ => show win3_1.index t 2 * 128 + 1 * (y 2).val = (k 2).val; rw [e2, hk2]; omega

/-- The values' block at point t. -/
theorem iblk_v (c : Dev nD) (t : Fin cfg3.N) (y : S1x1024x128.Idx) (k : S4x1024x1024.Idx)
    (hk0 : (k 0).val = t.val / 8) (hk1 : (k 1).val = (y 1).val) (hk2 : (k 2).val = t.val % 8 * 128 + (y 2).val) :
    (iblk3 V c 2 t : Vec Ideal S1x1024x128 .f32) y = (V c main_v17 : S4x1024x1024.Idx → EReal) k := by
  obtain ⟨-, -, ⟨e0, e1, e2⟩, -⟩ := idx_facts t
  have hy0 : (y 0).val < 1 := (y 0).isLt
  unfold iblk3
  rw [View.read_apply]
  show V c main_v17 _ = V c main_v17 _
  refine congrArg _ (funext fun a => Fin.ext ?_)
  match a with
  | ⟨0, _⟩ => show win3_2.index t 0 * 1 + 1 * (y 0).val = (k 0).val; rw [e0, hk0]; omega
  | ⟨1, _⟩ => show win3_2.index t 1 * 1024 + 1 * (y 1).val = (k 1).val; rw [e1, hk1]; omega
  | ⟨2, _⟩ => show win3_2.index t 2 * 128 + 1 * (y 2).val = (k 2).val; rw [e2, hk2]; omega

/-- The scaled scores of one head of the pair, on blocks that are the columns 128·thp … of batch tb of two arrays, are
    the scores of head 2·thp + hh on the arrays. -/
theorem score_blk (Q K : S4x1024x1024.Idx → EReal) (x0 x1 : Vec Ideal S1x1024x128 .f32) (tb thp : Nat)
    (hx0 : ∀ (y : S1x1024x128.Idx) (k : S4x1024x1024.Idx), (k 0).val = tb → (k 1).val = (y 1).val →
      (k 2).val = thp * 128 + (y 2).val → x0 y = Q k)
    (hx1 : ∀ (y : S1x1024x128.Idx) (k : S4x1024x1024.Idx), (k 0).val = tb → (k 1).val = (y 1).val →
      (k 2).val = thp * 128 + (y 2).val → x1 y = K k)
    (hh : Fin 2) (q k' : Fin 1024) (b : Fin 4) (h : Fin 16) (hb : b.val = tb) (hh' : h.val = thp * 2 + hh.val) :
    (∑ d' : Fin 64, x0 (ix3 (0 : Fin 1) q (Attn.col hh d')) * x1 (ix3 (0 : Fin 1) k' (Attn.col hh d'))) * Attn.scale
      = Attn.scoreAt Q K b h q k' := by
  unfold Attn.scoreAt
  refine congrArg (· * Attn.scale) (Finset.sum_congr rfl fun d' _ => congrArg₂ (· * ·) ?_ ?_)
  · refine hx0 _ _ hb rfl ?_
    show h.val * 64 + d'.val = thp * 128 + (hh.val * 64 + d'.val); omega
  · refine hx1 _ _ hb rfl ?_
    show h.val * 64 + d'.val = thp * 128 + (hh.val * 64 + d'.val); omega

theorem hz3 : (![0, 0, 0] : Fin 3 → Nat) = fun _ => 0 := funext fun a => by fin_cases a <;> rfl

/-- What point t writes back into the weights array is block t of the attention weights. -/
theorem flushedW_eq (HW : BodyW) (c : Dev nD) (t : Fin cfg3.N) :
    (dat3 V c).flushed 4 t = ((cfg3.win 4).blk t).view.read (Elt Ideal) (Attn.weights (V c main_v7) (V c main_v12)) := by
  show (cfg3.win 4).cut (grid3.coords t) ((dat3 V c).after 4 t) = _
  rw [after3_4]
  obtain ⟨-, -, -, -, ⟨e0, e1, e2, e3⟩⟩ := idx_facts t
  funext j
  show out3_4 (F := Ideal) (iblk3 V c 0 t) (iblk3 V c 1 t) (iblk3 V c 2 t) j
    = Attn.weights (V c main_v7) (V c main_v12) (((cfg3.win 4).blk t).view.emb j)
  have hj0 : (j 0).val < 1 := (j 0).isLt
  have hj1 : (j 1).val < 2 := (j 1).isLt
  have hj : j = ix4 (0 : Fin 1) (j 1) (j 2) (j 3) := funext fun a => Fin.ext (by
    match a with
    | ⟨0, _⟩ => show (j 0).val = 0; omega
    | ⟨1, _⟩ => rfl
    | ⟨2, _⟩ => rfl
    | ⟨3, _⟩ => rfl)
  refine ((congrArg (out3_4 (F := Ideal) (iblk3 V c 0 t) (iblk3 V c 1 t) (iblk3 V c 2 t)) hj).trans (HW _ _ _ (j 1) (j 2) (j 3))).trans ?_
  have h0 : ((((cfg3.win 4).blk t).view.emb j) 0).val = t.val / 8 := by
    show win3_4.index t 0 * 1 + 1 * (j 0).val = _; rw [e0]; omega
  have h1 : ((((cfg3.win 4).blk t).view.emb j) 1).val = t.val % 8 * 2 + (j 1).val := by
    show win3_4.index t 1 * 2 + 1 * (j 1).val = _; rw [e1]; omega
  have h2 : ((((cfg3.win 4).blk t).view.emb j) 2).val = (j 2).val := by
    show win3_4.index t 2 * 1024 + 1 * (j 2).val = _; rw [e2]; omega
  have h3 : ((((cfg3.win 4).blk t).view.emb j) 3).val = (j 3).val := by
    show win3_4.index t 3 * 1024 + 1 * (j 3).val = _; rw [e3]; omega
  unfold Attn.weights
  have hq : (j 2 : Fin 1024) = (((cfg3.win 4).blk t).view.emb j) 2 := Fin.ext h2.symm
  have hk : (j 3 : Fin 1024) = (((cfg3.win 4).blk t).view.emb j) 3 := Fin.ext h3.symm
  rw [← hq, ← hk]
  refine congrArg (fun s => Attn.softmaxRow s (j 3)) (funext fun k' => ?_)
  exact score_blk (V c main_v7) (V c main_v12) (iblk3 V c 0 t) (iblk3 V c 1 t) (t.val / 8) (t.val % 8)
    (fun y k => iblk_q V c t y k) (fun y k => iblk_k V c t y k) (j 1) (j 2) k' _ _ h0 h1

theorem flushedC_eq (HC : BodyC) (c : Dev nD) (t : Fin cfg3.N) :
    (dat3 V c).flushed 3 t = ((cfg3.win 3).blk t).view.read (Elt Ideal)
      (Attn.context (Attn.weights (V c main_v7) (V c main_v12)) (V c main_v17)) := by
  show (cfg3.win 3).cut (grid3.coords t) ((dat3 V c).after 3 t) = _
  rw [after3_3]
  obtain ⟨-, -, -, ⟨e0, e1, e2⟩, -⟩ := idx_facts t
  funext j
  show out3_3 (F := Ideal) (iblk3 V c 0 t) (iblk3 V c 1 t) (iblk3 V c 2 t) j
    = Attn.context (Attn.weights (V c main_v7) (V c main_v12)) (V c main_v17) (((cfg3.win 3).blk t).view.emb j)
  have hj0 : (j 0).val < 1 := (j 0).isLt
  have hj2 : (j 2).val < 128 := (j 2).isLt
  have hj : j = ix3 (0 : Fin 1) (j 1) (Attn.col ⟨(j 2).val / 64, by omega⟩ ⟨(j 2).val % 64, Nat.mod_lt _ (by decide)⟩) :=
    funext fun a => Fin.ext (by
      match a with
      | ⟨0, _⟩ => show (j 0).val = 0; omega
      | ⟨1, _⟩ => rfl
      | ⟨2, _⟩ => show (j 2).val = (j 2).val / 64 * 64 + (j 2).val % 64; omega)
  refine ((congrArg (out3_3 (F := Ideal) (iblk3 V c 0 t) (iblk3 V c 1 t) (iblk3 V c 2 t)) hj).trans (HC _ _ _ (j 1) _ _)).trans ?_
  have h0 : ((((cfg3.win 3).blk t).view.emb j) 0).val = t.val / 8 := by
    show win3_3.index t 0 * 1 + 1 * (j 0).val = _; rw [e0]; omega
  have h1 : ((((cfg3.win 3).blk t).view.emb j) 1).val = (j 1).val := by
    show win3_3.index t 1 * 1024 + 1 * (j 1).val = _; rw [e1]; omega
  have h2 : ((((cfg3.win 3).blk t).view.emb j) 2).val = t.val % 8 * 128 + (j 2).val := by
    show win3_3.index t 2 * 128 + 1 * (j 2).val = _; rw [e2]; omega
  unfold Attn.context Attn.ctxAt
  have hq : (j 1 : Fin 1024) = (((cfg3.win 3).blk t).view.emb j) 1 := Fin.ext h1.symm
  rw [← hq]
  refine Finset.sum_congr rfl fun k _ => congrArg₂ (· * ·) ?_ ?_
  · show _ = Attn.softmaxRow (fun k' => Attn.scoreAt (V c main_v7) (V c main_v12) ((((cfg3.win 3).blk t).view.emb j) 0)
        ⟨((((cfg3.win 3).blk t).view.emb j) 2).val / 64, _⟩ (j 1) k') k
    refine congrArg (fun s => Attn.softmaxRow s k) (funext fun k' => ?_)
    refine score_blk (V c main_v7) (V c main_v12) (iblk3 V c 0 t) (iblk3 V c 1 t) (t.val / 8) (t.val % 8)
      (fun y k => iblk_q V c t y k) (fun y k => iblk_k V c t y k) _ (j 1) k' _ _ h0 ?_
    show ((((cfg3.win 3).blk t).view.emb j) 2).val / 64 = t.val % 8 * 2 + (j 2).val / 64
    rw [h2]; omega
  · refine iblk_v V c t _ _ h0 rfl ?_
    show ((((cfg3.win 3).blk t).view.emb j) 2).val / 64 * 64 + ((((cfg3.win 3).blk t).view.emb j) 2).val % 64
      = t.val % 8 * 128 + ((j 2).val / 64 * 64 + (j 2).val % 64)
    rw [h2]; omega

/-- An index of the weights array lies in point t's block iff each coordinate lies in the block's range. -/
theorem mem_blkW (t : Fin cfg3.N) (i : S4x16x1024x1024.Idx) :
    i ∈ ((cfg3.win 4).blk t).view.set ↔ ∀ a : Fin 4, win3_4.index t a * S1x2x1024x1024.size a ≤ (i a).val ∧ (i a).val < win3_4.index t a * S1x2x1024x1024.size a + S1x2x1024x1024.size a := by
  show i ∈ ((View.whole main_v18_1).slice (win3_4.rect t)).set ↔ _
  rw [View.set_slice_whole, Rect.mem_set_unit]
  exact Iff.rfl

/-- An index of the context array lies in point t's block iff each coordinate lies in the block's range. -/
theorem mem_blkC (t : Fin cfg3.N) (i : S4x1024x1024.Idx) :
    i ∈ ((cfg3.win 3).blk t).view.set ↔ ∀ a : Fin 3, win3_3.index t a * S1x1024x128.size a ≤ (i a).val ∧ (i a).val < win3_3.index t a * S1x1024x128.size a + S1x1024x128.size a := by
  show i ∈ ((View.whole main_v18_0).slice (win3_3.rect t)).set ↔ _
  rw [View.set_slice_whole, Rect.mem_set_unit]
  exact Iff.rfl

/-- The weights array when the region ends: the attention weights of the projected queries and keys. -/
theorem finalW (HW : BodyW) (c : Dev nD) : (dat3 V c).arrAt 4 cfg3.N = Attn.weights (V c main_v7) (V c main_v12) :=
  (dat3 V c).arrAt_eq_of_cover 4 _ (fun t _ => flushedW_eq V HW c t) fun i => by
    have hi0 : (i 0).val < 4 := (i 0).isLt
    have hi1 : (i 1).val < 16 := (i 1).isLt
    have hi2 : (i 2).val < 1024 := (i 2).isLt
    have hi3 : (i 3).val < 1024 := (i 3).isLt
    have hN : cfg3.N = 32 := N_3
    let t : Fin cfg3.N := ⟨(i 0).val * 8 + (i 1).val / 2, by rw [hN]; omega⟩
    obtain ⟨-, -, -, -, ⟨e0, e1, e2, e3⟩⟩ := idx_facts t
    refine ⟨t, flush3_4 t, ?_⟩
    rw [mem_blkW]
    intro a
    match a with
    | ⟨0, _⟩ => show win3_4.index t 0 * 1 ≤ (i 0).val ∧ (i 0).val < win3_4.index t 0 * 1 + 1; rw [e0]; show ((i 0).val * 8 + (i 1).val / 2) / 8 * 1 ≤ _ ∧ _ < ((i 0).val * 8 + (i 1).val / 2) / 8 * 1 + 1; omega
    | ⟨1, _⟩ => show win3_4.index t 1 * 2 ≤ (i 1).val ∧ (i 1).val < win3_4.index t 1 * 2 + 2; rw [e1]; show ((i 0).val * 8 + (i 1).val / 2) % 8 * 2 ≤ _ ∧ _ < ((i 0).val * 8 + (i 1).val / 2) % 8 * 2 + 2; omega
    | ⟨2, _⟩ => show win3_4.index t 2 * 1024 ≤ (i 2).val ∧ (i 2).val < win3_4.index t 2 * 1024 + 1024; rw [e2]; omega
    | ⟨3, _⟩ => show win3_4.index t 3 * 1024 ≤ (i 3).val ∧ (i 3).val < win3_4.index t 3 * 1024 + 1024; rw [e3]; omega

/-- The context array when the region ends: the attention weights against the projected values. -/
theorem finalC (HC : BodyC) (c : Dev nD) :
    (dat3 V c).arrAt 3 cfg3.N = Attn.context (Attn.weights (V c main_v7) (V c main_v12)) (V c main_v17) :=
  (dat3 V c).arrAt_eq_of_cover 3 _ (fun t _ => flushedC_eq V HC c t) fun i => by
    have hi0 : (i 0).val < 4 := (i 0).isLt
    have hi1 : (i 1).val < 1024 := (i 1).isLt
    have hi2 : (i 2).val < 1024 := (i 2).isLt
    have hN : cfg3.N = 32 := N_3
    let t : Fin cfg3.N := ⟨(i 0).val * 8 + (i 2).val / 128, by rw [hN]; omega⟩
    obtain ⟨-, -, -, ⟨e0, e1, e2⟩, -⟩ := idx_facts t
    refine ⟨t, flush3_3 t, ?_⟩
    rw [mem_blkC]
    intro a
    match a with
    | ⟨0, _⟩ => show win3_3.index t 0 * 1 ≤ (i 0).val ∧ (i 0).val < win3_3.index t 0 * 1 + 1; rw [e0]; show ((i 0).val * 8 + (i 2).val / 128) / 8 * 1 ≤ _ ∧ _ < ((i 0).val * 8 + (i 2).val / 128) / 8 * 1 + 1; omega
    | ⟨1, _⟩ => show win3_3.index t 1 * 1024 ≤ (i 1).val ∧ (i 1).val < win3_3.index t 1 * 1024 + 1024; rw [e1]; omega
    | ⟨2, _⟩ => show win3_3.index t 2 * 128 ≤ (i 2).val ∧ (i 2).val < win3_3.index t 2 * 128 + 128; rw [e2]; show ((i 0).val * 8 + (i 2).val / 128) % 8 * 128 ≤ _ ∧ _ < ((i 0).val * 8 + (i 2).val / 128) % 8 * 128 + 128; omega

end Cert.AttnArr

end
-- ==== Proof.AttnBody.lean ====
/-
  The attention kernel's body, read at one index.

  The body receives three [1, 1024, 128] blocks: queries, keys and values of TWO heads, head hh in the 64 columns
  64·hh … 64·hh + 63. For each of the two heads it forms the 1024 × 1024 scores (Σ_d q[r, d] · k[c, d]) · 1/8, takes each
  row's maximum (folded from −∞), exponentiates the differences, divides by the row's sum, stores these weights as one
  [1, 1, 1024, 1024] piece of the weights block, and multiplies them into the head's 64 value columns; the two heads'
  products are laid side by side as the [1, 1024, 128] context block.

  This file states that, entry by entry: the weights block at (0, hh, q, k) is the softmax row of the scaled scores
  of row q of head hh at k, and the context block at (0, q, 64·hh + d) is the sum over k of those weights times the
  value at (k, 64·hh + d). Every step is a re-indexing: no sum is re-associated and no factor moved.
-/
import proofs.«152439_j69595650064719_2_alg».proof.Proof.Spec
import proofs.«152439_j69595650064719_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.AttnBody

open Idealize.ShloMosaic Idealize.ShloMosaic.ValueIdx
open Cert.KernelIdeal Cert.KernelIdeal.Gen
open scoped BigOperators

/-! ## Layout operations at coordinates: the column forms -/

section Layout
variable {α : Type}

/-- An [a] vector cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a, b] matrix cast to [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

end Layout

/-! ## The two matrix products at an index -/

section Matmul
variable {φ₁ φ₂ : FTy}

/-- The dimension numbers of the score product: both operands contract their trailing axis. -/
abbrev Dqk : DotDims S1024x64 S1024x64 S1024x1024 := dot_S1024x64_S1024x64_S1024x1024_1_1_0_0_n_n
/-- The dimension numbers of the weights-times-values product: the plain matrix product. -/
abbrev Dpv : DotDims S1024x1024 S1024x64 S1024x64 := dot_S1024x1024_S1024x64_S1024x64_1_0_0_1_n_n

theorem lhs_qk_0 (i : S1024x1024.Idx) (c : Dqk.contr.Idx) : (Dqk.lhsIdx i c 0).val = (i 0).val := by
  unfold DotDims.lhsIdx
  rw [dif_neg (show ¬(0 : Fin S1024x64.rank) ∈ Dqk.lhsBatch by decide), dif_pos (show (0 : Fin S1024x64.rank) ∈ Dqk.lhsNonContracting by decide)]
  rfl
theorem lhs_qk_1 (i : S1024x1024.Idx) (c : Dqk.contr.Idx) : (Dqk.lhsIdx i c 1).val = (c ⟨0, by decide⟩).val :=
  Dqk.lhsIdx_val_of_single rfl i c
theorem rhs_qk_0 (i : S1024x1024.Idx) (c : Dqk.contr.Idx) : (Dqk.rhsIdx i c 0).val = (i 1).val := by
  unfold DotDims.rhsIdx
  rw [dif_neg (show ¬(0 : Fin S1024x64.rank) ∈ Dqk.rhsBatch by decide), dif_pos (show (0 : Fin S1024x64.rank) ∈ Dqk.rhsNonContracting by decide)]
  rfl
theorem rhs_qk_1 (i : S1024x1024.Idx) (c : Dqk.contr.Idx) : (Dqk.rhsIdx i c 1).val = (c ⟨0, by decide⟩).val :=
  Dqk.rhsIdx_val_of_single rfl i c

/-- The score product into a zero accumulator, at (q, k): the sum over d of l[q, d] · r[k, d]. -/
theorem matmul_qk_apply (l : FVec Ideal S1024x64 φ₁) (r : FVec Ideal S1024x64 φ₂) (q k : Fin 1024) :
    matmul Dqk none l r (constant (F := Ideal) S1024x1024 .f32 0x00000000#32) (ix2 q k)
      = ∑ d : Fin 64, l (ix2 q d) * r (ix2 k d) := by
  refine (Ideal.matmul_constant_zero_apply Dqk none l r (ix2 q k)).trans ?_
  rw [← Equiv.sum_comp (contrEquiv1 Dqk 64 rfl rfl).symm]
  refine Finset.sum_congr rfl fun d _ => ?_
  have hd := contrEquiv1_symm_val Dqk 64 rfl rfl d
  have el : Dqk.lhsIdx (ix2 q k) ((contrEquiv1 Dqk 64 rfl rfl).symm d) = ix2 q d := funext fun a => Fin.ext (by
    match a with
    | ⟨0, _⟩ => exact lhs_qk_0 _ _
    | ⟨1, _⟩ => exact (lhs_qk_1 _ _).trans hd)
  have er : Dqk.rhsIdx (ix2 q k) ((contrEquiv1 Dqk 64 rfl rfl).symm d) = ix2 k d := funext fun a => Fin.ext (by
    match a with
    | ⟨0, _⟩ => exact rhs_qk_0 _ _
    | ⟨1, _⟩ => exact (rhs_qk_1 _ _).trans hd)
  rw [el, er]

theorem lhs_pv_0 (i : S1024x64.Idx) (c : Dpv.contr.Idx) : (Dpv.lhsIdx i c 0).val = (i 0).val := by
  unfold DotDims.lhsIdx
  rw [dif_neg (show ¬(0 : Fin S1024x1024.rank) ∈ Dpv.lhsBatch by decide), dif_pos (show (0 : Fin S1024x1024.rank) ∈ Dpv.lhsNonContracting by decide)]
  rfl
theorem lhs_pv_1 (i : S1024x64.Idx) (c : Dpv.contr.Idx) : (Dpv.lhsIdx i c 1).val = (c ⟨0, by decide⟩).val :=
  Dpv.lhsIdx_val_of_single rfl i c
theorem rhs_pv_0 (i : S1024x64.Idx) (c : Dpv.contr.Idx) : (Dpv.rhsIdx i c 0).val = (c ⟨0, by decide⟩).val :=
  Dpv.rhsIdx_val_of_single rfl i c
theorem rhs_pv_1 (i : S1024x64.Idx) (c : Dpv.contr.Idx) : (Dpv.rhsIdx i c 1).val = (i 1).val := by
  unfold DotDims.rhsIdx
  rw [dif_neg (show ¬(1 : Fin S1024x64.rank) ∈ Dpv.rhsBatch by decide), dif_pos (show (1 : Fin S1024x64.rank) ∈ Dpv.rhsNonContracting by decide)]
  rfl

/-- The weights-times-values product into a zero accumulator, at (q, d): the sum over k of p[q, k] · v[k, d]. -/
theorem matmul_pv_apply (p : FVec Ideal S1024x1024 φ₁) (v : FVec Ideal S1024x64 φ₂) (q : Fin 1024) (d : Fin 64) :
    matmul Dpv none p v (constant (F := Ideal) S1024x64 .f32 0x00000000#32) (ix2 q d)
      = ∑ k : Fin 1024, p (ix2 q k) * v (ix2 k d) := by
  refine (Ideal.matmul_constant_zero_apply Dpv none p v (ix2 q d)).trans ?_
  rw [← Equiv.sum_comp (contrEquiv1 Dpv 1024 rfl rfl).symm]
  refine Finset.sum_congr rfl fun k _ => ?_
  have hk := contrEquiv1_symm_val Dpv 1024 rfl rfl k
  have el : Dpv.lhsIdx (ix2 q d) ((contrEquiv1 Dpv 1024 rfl rfl).symm k) = ix2 q k := funext fun a => Fin.ext (by
    match a with
    | ⟨0, _⟩ => exact lhs_pv_0 _ _
    | ⟨1, _⟩ => exact (lhs_pv_1 _ _).trans hk)
  have er : Dpv.rhsIdx (ix2 q d) ((contrEquiv1 Dpv 1024 rfl rfl).symm k) = ix2 k d := funext fun a => Fin.ext (by
    match a with
    | ⟨0, _⟩ => exact (rhs_pv_0 _ _).trans hk
    | ⟨1, _⟩ => exact rhs_pv_1 _ _)
  rw [el, er]

end Matmul

/-! ## The two lane reductions at a row -/

section Reductions

/-- The source index of row r at lane k, as the reduction inserts it. -/
theorem lift_row (h : S1024x1024.Reduces [1] S1024) (r k : Fin 1024) : h.lift (ix1 r) k = ix2 r k :=
  funext fun a => Fin.ext (by
    match a with
    | ⟨0, _⟩ => rfl
    | ⟨1, _⟩ => rfl)

/-- A row's maximum: when row r of `S` reads `s`, the lane maximum from −∞ at r is the fold of max from −∞ over `s`. -/
theorem rowMax_of (S : FVec Ideal S1024x1024 .f32) (h : S1024x1024.Reduces [1] S1024) (hφ : FKind.Formats .f32)
    (hacc : (0xFF800000#32 : BitVec 32) = FKind.maximumf.neutral .f32 hφ) (s : Fin 1024 → EReal) (r : Fin 1024)
    (hS : ∀ k, S (ix2 r k) = s k) :
    multiReduction .maximumf [1] S1024 S 0xFF800000#32 h hφ hacc (ix1 r) = Attn.rowMax s := by
  refine (Ideal.multiReduction_maximumf_single S _ h hφ hacc (ix1 r)).trans ?_
  show (Finset.univ : Finset (Fin 1024)).fold max (Ideal.ofBits .f32 0xFF800000#32) (fun k => S (h.lift (ix1 r) k)) = _
  unfold Attn.rowMax
  exact congrArg (fun f => (Finset.univ : Finset (Fin 1024)).fold max Attn.negInf f)
    (funext fun k => (congrArg S (lift_row h r k)).trans (hS k))

/-- A row's sum: the lane sum at r is the sum over the row's 1024 entries. -/
theorem rowSum_apply (S : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 S 0x00000000#32 h hφ hacc (ix1 r) = ∑ k : Fin 1024, S (ix2 r k) := by
  refine (Ideal.multiReduction_add_single S _ h hφ hacc (ix1 r)).trans ?_
  show ∑ k : Fin 1024, S (h.lift (ix1 r) k) = _
  exact Finset.sum_congr rfl fun k _ => congrArg S (lift_row h r k)

end Reductions

/-! ## The body's payloads at an index -/

section Payloads

/-- The scaled scores of query row q of head hh against every key row. -/
def scoreRow (x0 x1 : Vec Ideal S1x1024x128 .f32) (hh : Fin 2) (q : Fin 1024) : Fin 1024 → EReal :=
  fun k' => (∑ d' : Fin 64, x0 (ix3 (0 : Fin 1) q (Attn.col hh d')) * x1 (ix3 (0 : Fin 1) k' (Attn.col hh d'))) * Attn.scale

/-- A block with its unit axis dropped (and its format changed, which is the identity here) reads the block. -/
theorem pay4_apply (v : Vec Ideal S1x1024x128 .f32) (r : Fin 1024) (c : Fin 128) :
    k3_pay4 (F := Ideal) v (ix2 r c) = v (ix3 (0 : Fin 1) r c) := by
  unfold k3_pay4
  exact shapeCast_1ab_ab_apply v _ r c
theorem pay5_apply (v : Vec Ideal S1x1024x128 .f32) (r : Fin 1024) (c : Fin 128) :
    k3_pay5 (F := Ideal) v (ix2 r c) = v (ix3 (0 : Fin 1) r c) := by
  unfold k3_pay5
  exact shapeCast_1ab_ab_apply v _ r c
theorem pay6_apply (v : Vec Ideal S1x1024x128 .f32) (r : Fin 1024) (c : Fin 128) :
    k3_pay6 (F := Ideal) v (ix2 r c) = v (ix3 (0 : Fin 1) r c) := by
  unfold k3_pay6
  exact shapeCast_1ab_ab_apply v _ r c

/-- The 64 columns of head hh cut out of a [1024, 128] matrix: column d of the cut is column 64·hh + d. -/
theorem headSlice_apply {φ : FTy} (X : FVec Ideal S1024x128 φ) (hh : Fin 2) (o : ℕ) (ho : o = hh.val * 64)
    (h : S1024x128.Slices ![0, o] S1024x64) (r : Fin 1024) (d : Fin 64) :
    extractStridedSlice S1024x64 ![0, o] X h (ix2 r d) = X (ix2 r (Attn.col hh d)) :=
  slice2_axis1_apply o X h r d (Attn.col hh d) (by
    show hh.val * 64 + d.val = o + d.val
    rw [ho])

/-- The scaled score matrix of head hh at (q, k). -/
theorem scores_apply (x0 x1 : Vec Ideal S1x1024x128 .f32) (hh : Fin 2) (o : ℕ) (ho : o = hh.val * 64)
    (h : S1024x128.Slices ![0, o] S1024x64) (q k : Fin 1024) :
    mulf (matmul Dqk none (extractStridedSlice S1024x64 ![0, o] (k3_pay4 (F := Ideal) x0) h)
        (extractStridedSlice S1024x64 ![0, o] (k3_pay5 (F := Ideal) x1) h) (constant (F := Ideal) S1024x1024 .f32 0x00000000#32))
      (broadcast S1024x1024 (Scalar.ofBits (F := Ideal) .f32 0x3E000000#32)) (ix2 q k) = scoreRow x0 x1 hh q k := by
  refine (mulf_apply _ _ _).trans ?_
  refine congrArg (· * Attn.scale) ?_
  refine (matmul_qk_apply _ _ q k).trans ?_
  refine Finset.sum_congr rfl fun d _ => ?_
  rw [headSlice_apply _ hh o ho h q d, headSlice_apply _ hh o ho h k d, pay4_apply, pay5_apply]

/-- The softmax payload over any score matrix `S` and any vector `M` of row maxima: when row q of `S` reads `s` and `M` at q
    is the maximum of `s`, the payload at (q, k) is the softmax of `s` at k. -/
theorem softmax_of (S : FVec Ideal S1024x1024 .f32) (M : FVec Ideal S1024 .f32) (s : Fin 1024 → EReal) (q : Fin 1024)
    (hS : ∀ k, S (ix2 q k) = s k) (hM : M (ix1 q) = Attn.rowMax s) (k : Fin 1024) :
    k3_pay1 (F := Ideal) S M (ix2 q k) = Attn.softmaxRow s k := by
  have hsub : ∀ k', subf S (broadcastTo S1024x1024 (shapeCast S1024x1 M shapeCasts_S1024_S1024x1) broadcasts_S1024x1_S1024x1024) (ix2 q k')
      = s k' - Attn.rowMax s := fun k' => by
    refine (subf_apply _ _ _).trans ?_
    rw [broadcastTo_a1_ab_apply, shapeCast_a_a1_apply, hS k', hM]
  unfold k3_pay1 Attn.softmaxRow
  refine (divf_apply _ _ _).trans ?_
  refine congrArg₂ Ideal.div ?_ ?_
  · exact congrArg Ideal.exp (hsub k)
  · rw [broadcastTo_a1_ab_apply, shapeCast_a_a1_apply]
    refine (rowSum_apply _ _ _ _ q).trans ?_
    exact Finset.sum_congr rfl fun k' _ => congrArg Ideal.exp (hsub k')

end Payloads

/-! ## The two heads' weights -/

section Heads

/-- The scaled score matrix of the head whose columns start at o, as the body forms it. -/
def scoresMat (x0 x1 : Vec Ideal S1x1024x128 .f32) (o : ℕ) (h : S1024x128.Slices ![0, o] S1024x64) : FVec Ideal S1024x1024 .f32 :=
  mulf (matmul Dqk none (extractStridedSlice S1024x64 ![0, o] (k3_pay4 (F := Ideal) x0) h)
      (extractStridedSlice S1024x64 ![0, o] (k3_pay5 (F := Ideal) x1) h) (constant (F := Ideal) S1024x1024 .f32 0x00000000#32))
    (broadcast S1024x1024 (Scalar.ofBits (F := Ideal) .f32 0x3E000000#32))

theorem scoresMat_apply (x0 x1 : Vec Ideal S1x1024x128 .f32) (hh : Fin 2) (o : ℕ) (ho : o = hh.val * 64)
    (h : S1024x128.Slices ![0, o] S1024x64) (q k : Fin 1024) : scoresMat x0 x1 o h (ix2 q k) = scoreRow x0 x1 hh q k :=
  scores_apply x0 x1 hh o ho h q k

/-- The first head's weights payload is the softmax payload over its scores and their row maxima. -/
theorem pay7_eq (x0 x1 : Vec Ideal S1x1024x128 .f32) :
    k3_pay7 (F := Ideal) x0 x1 = k3_pay1 (F := Ideal) (scoresMat x0 x1 0 slices_S1024x128_o0_0_S1024x64)
      (multiReduction .maximumf [1] S1024 (scoresMat x0 x1 0 slices_S1024x128_o0_0_S1024x64) 0xFF800000#32
        reduces_S1024x1024_S1024 (.inl rfl) rfl) := rfl
/-- The second head's scores payload. -/
theorem pay11_eq (x0 x1 : Vec Ideal S1x1024x128 .f32) :
    k3_pay11 (F := Ideal) x0 x1 = scoresMat x0 x1 64 slices_S1024x128_o0_64_S1024x64 := rfl

/-- The first head's weights at (q, k). -/
theorem weights0_apply (x0 x1 : Vec Ideal S1x1024x128 .f32) (hh : Fin 2) (h0 : hh.val = 0) (q k : Fin 1024) :
    k3_pay7 (F := Ideal) x0 x1 (ix2 q k) = Attn.softmaxRow (scoreRow x0 x1 hh q) k := by
  have hS : ∀ k', scoresMat x0 x1 0 slices_S1024x128_o0_0_S1024x64 (ix2 q k') = scoreRow x0 x1 hh q k' :=
    fun k' => scoresMat_apply x0 x1 hh 0 (by rw [h0]) _ q k'
  refine (congrFun (pay7_eq x0 x1) (ix2 q k)).trans ?_
  exact softmax_of _ _ (scoreRow x0 x1 hh q) q hS (rowMax_of _ _ _ _ _ q hS) k

/-- The second head's weights at (q, k). -/
theorem weights1_apply (x0 x1 : Vec Ideal S1x1024x128 .f32) (hh : Fin 2) (h1 : hh.val = 1) (q k : Fin 1024) :
    k3_pay1 (F := Ideal) (k3_pay11 (F := Ideal) x0 x1) (k3_pay12 (F := Ideal) x0 x1) (ix2 q k)
      = Attn.softmaxRow (scoreRow x0 x1 hh q) k := by
  have hS : ∀ k', k3_pay11 (F := Ideal) x0 x1 (ix2 q k') = scoreRow x0 x1 hh q k' :=
    fun k' => (congrFun (pay11_eq x0 x1) (ix2 q k')).trans (scoresMat_apply x0 x1 hh 64 (by rw [h1]) _ q k')
  refine softmax_of _ _ (scoreRow x0 x1 hh q) q hS ?_ k
  unfold k3_pay12
  exact rowMax_of _ _ _ _ _ q hS

end Heads

/-! ## The weights block -/

section WeightsBlock

theorem zeros3 : (![0, 0, 0] : Fin 3 → ℕ) = fun _ => 0 := funext fun a => by fin_cases a <;> rfl

/-- Under the piece stored at head offset 1, the block at (0, hh, q, k) with hh = 1 is that piece at (0, 0, q, k). -/
theorem canon_head1 (p1 : Vec Ideal S1x1x1024x1024 .f32) (L : List (View.Piece (Elt Ideal) S1x2x1024x1024 .f32))
    (hh : Fin 2) (h1 : hh.val = 1) (q k : Fin 1024) :
    View.canon ((⟨r3_2, p1⟩ : View.Piece (Elt Ideal) S1x2x1024x1024 .f32) :: L) (ix4 (0 : Fin 1) hh q k)
      = p1 (ix4 (0 : Fin 1) (0 : Fin 1) q k) := by
  have e : ix4 (0 : Fin 1) hh q k = r3_2.emb (ix4 (0 : Fin 1) (0 : Fin 1) q k) := funext fun a => Fin.ext (by
    match a with
    | ⟨0, _⟩ => rfl
    | ⟨1, _⟩ => show hh.val = 1 + 1 * 0; omega
    | ⟨2, _⟩ => show q.val = 0 + 1 * q.val; omega
    | ⟨3, _⟩ => show k.val = 0 + 1 * k.val; omega)
  rw [e]
  exact View.canon_cons_emb r3_2 p1 L _

/-- With hh = 0 the index lies off that piece and under the one stored at head offset 0. -/
theorem canon_head0 (p1 p0 : Vec Ideal S1x1x1024x1024 .f32) (hh : Fin 2) (h0 : hh.val = 0) (q k : Fin 1024) :
    View.canon [(⟨r3_2, p1⟩ : View.Piece (Elt Ideal) S1x2x1024x1024 .f32), ⟨r3_1, p0⟩] (ix4 (0 : Fin 1) hh q k)
      = p0 (ix4 (0 : Fin 1) (0 : Fin 1) q k) := by
  have hn : ix4 (0 : Fin 1) hh q k ∉ (⟨r3_2, p1⟩ : View.Piece (Elt Ideal) S1x2x1024x1024 .f32).1.set := fun hm => by
    have h := ((Rect.mem_set_unit (s := S1x2x1024x1024) (off := ![0, 1, 0, 0]) (size := S1x1x1024x1024.size)
      (inb := inb_S1x2x1024x1024_S1x1x1024x1024_0_1_0_0)).mp hm (1 : Fin 4)).1
    have h' : 1 ≤ hh.val := h
    omega
  rw [View.canon_cons_of_not_mem _ _ hn]
  have e : ix4 (0 : Fin 1) hh q k = r3_1.emb (ix4 (0 : Fin 1) (0 : Fin 1) q k) := funext fun a => Fin.ext (by
    match a with
    | ⟨0, _⟩ => rfl
    | ⟨1, _⟩ => show hh.val = 0 + 1 * 0; omega
    | ⟨2, _⟩ => show q.val = 0 + 1 * q.val; omega
    | ⟨3, _⟩ => show k.val = 0 + 1 * k.val; omega)
  rw [e]
  exact View.canon_cons_emb r3_1 p0 [] _

/-- THE WEIGHTS BLOCK at (0, hh, q, k): the softmax over k' of the scaled scores of query row q against key rows k' in
    head hh, at k. -/
theorem out3_4_apply (x0 x1 x2 : Vec Ideal S1x1024x128 .f32) (hh : Fin 2) (q k : Fin 1024) :
    out3_4 (F := Ideal) x0 x1 x2 (ix4 (0 : Fin 1) hh q k)
      = Attn.softmaxRow (fun k' => (∑ d' : Fin 64, x0 (ix3 (0 : Fin 1) q (Attn.col hh d')) * x1 (ix3 (0 : Fin 1) k' (Attn.col hh d'))) * Attn.scale) k := by
  show _ = Attn.softmaxRow (scoreRow x0 x1 hh q) k
  unfold out3_4
  simp only [View.ld_unit_zero (S := S1x1024x128) zeros3]
  have hlt := hh.isLt
  rcases (show hh.val = 0 ∨ hh.val = 1 by omega) with h | h
  · refine (canon_head0 _ _ hh h q k).trans ?_
    unfold k3_pay8
    refine (shapeCast_ab_11ab_apply _ _ _ _ q k).trans ?_
    exact weights0_apply x0 x1 hh h q k
  · refine (canon_head1 _ _ hh h q k).trans ?_
    unfold k3_pay2
    refine (shapeCast_ab_11ab_apply _ _ _ _ q k).trans ?_
    exact weights1_apply x0 x1 hh h q k

end WeightsBlock

/-! ## The context block -/

section ContextBlock

/-- The first head's product of weights and values at (q, d). -/
theorem ctx0_apply (x0 x1 x2 : Vec Ideal S1x1024x128 .f32) (hh : Fin 2) (h0 : hh.val = 0) (q : Fin 1024) (d : Fin 64) :
    k3_pay9 (F := Ideal) x0 x1 x2 (ix2 q d)
      = ∑ k : Fin 1024, Attn.softmaxRow (scoreRow x0 x1 hh q) k * x2 (ix3 (0 : Fin 1) k (Attn.col hh d)) := by
  unfold k3_pay9
  refine (matmul_pv_apply _ _ q d).trans ?_
  refine Finset.sum_congr rfl fun k _ => congrArg₂ (· * ·) ?_ ?_
  · exact weights0_apply x0 x1 hh h0 q k
  · exact (headSlice_apply _ hh 0 (by rw [h0]) _ k d).trans (pay6_apply x2 k _)

/-- The context payload lays the two heads' [1024, 64] products side by side: in the first 64 columns it reads the first. -/
theorem pay3_left (v28 : FVec Ideal S1024x64 .f32) (v31 : FVec Ideal S1024x64 .bf16) (v34 : FVec Ideal S1024x1024 .f32)
    (v35 : FVec Ideal S1024 .f32) (hh : Fin 2) (h0 : hh.val = 0) (q : Fin 1024) (d : Fin 64) :
    k3_pay3 (F := Ideal) v28 v31 v34 v35 (ix3 (0 : Fin 1) q (Attn.col hh d)) = v28 (ix2 q d) := by
  unfold k3_pay3
  refine (shapeCast_ab_1ab_apply _ _ _ q _).trans ?_
  refine concatenate_pair_apply_left (t := S1024x128) (s₁ := S1024x64) (s₂ := S1024x64) (1 : Fin 2) _ _ _ (ix2 q (Attn.col hh d)) rfl (ix2 q d) (fun b => ?_)
  match b with
  | ⟨0, _⟩ => rfl
  | ⟨1, _⟩ => show d.val = hh.val * 64 + d.val; omega

/-- In the last 64 columns it reads the second head's product of weights and values. -/
theorem pay3_right (v28 : FVec Ideal S1024x64 .f32) (v31 : FVec Ideal S1024x64 .bf16) (v34 : FVec Ideal S1024x1024 .f32)
    (v35 : FVec Ideal S1024 .f32) (hh : Fin 2) (h1 : hh.val = 1) (q : Fin 1024) (d : Fin 64) :
    k3_pay3 (F := Ideal) v28 v31 v34 v35 (ix3 (0 : Fin 1) q (Attn.col hh d))
      = ∑ k : Fin 1024, k3_pay1 (F := Ideal) v34 v35 (ix2 q k) * v31 (ix2 k d) := by
  unfold k3_pay3
  refine (shapeCast_ab_1ab_apply _ _ _ q _).trans ?_
  refine (concatenate_pair_apply_right (t := S1024x128) (s₁ := S1024x64) (s₂ := S1024x64) (1 : Fin 2) _ _ _ (ix2 q (Attn.col hh d)) rfl rfl (ix2 q d) (fun b hb => ?_) ?_).trans ?_
  · match b with
    | ⟨0, _⟩ => rfl
    | ⟨1, _⟩ => exact absurd rfl hb
  · show d.val + 64 = hh.val * 64 + d.val
    omega
  · refine (matmul_pv_apply _ _ q d).trans ?_
    exact Finset.sum_congr rfl fun k _ => rfl

/-- THE CONTEXT BLOCK at (0, q, 64·hh + d): the sum over key rows k of head hh's weight of q against k times the value
    at (k, 64·hh + d). -/
theorem out3_3_apply (x0 x1 x2 : Vec Ideal S1x1024x128 .f32) (hh : Fin 2) (q : Fin 1024) (d : Fin 64) :
    out3_3 (F := Ideal) x0 x1 x2 (ix3 (0 : Fin 1) q (Attn.col hh d))
      = ∑ k : Fin 1024, Attn.softmaxRow (fun k' => (∑ d' : Fin 64, x0 (ix3 (0 : Fin 1) q (Attn.col hh d')) * x1 (ix3 (0 : Fin 1) k' (Attn.col hh d'))) * Attn.scale) k
          * x2 (ix3 (0 : Fin 1) k (Attn.col hh d)) := by
  show _ = ∑ k : Fin 1024, Attn.softmaxRow (scoreRow x0 x1 hh q) k * x2 (ix3 (0 : Fin 1) k (Attn.col hh d))
  unfold out3_3
  rw [View.canon_unit_zero zeros3]
  simp only [View.ld_unit_zero (S := S1x1024x128) zeros3]
  have hlt := hh.isLt
  rcases (show hh.val = 0 ∨ hh.val = 1 by omega) with h | h
  · refine (pay3_left _ _ _ _ hh h q d).trans ?_
    exact ctx0_apply x0 x1 x2 hh h q d
  · refine (pay3_right _ _ _ _ hh h q d).trans ?_
    refine Finset.sum_congr rfl fun k _ => congrArg₂ (· * ·) (weights1_apply x0 x1 hh h q k) ?_
    unfold k3_pay10
    exact (headSlice_apply _ hh 64 (by rw [h]) _ k d).trans (pay6_apply x2 k _)

end ContextBlock

end Cert.AttnBody

end
-- ==== Proof.KernelValue.lean ====
/-
  The idealized kernel program's run, read: its two results as functions of the eleven arguments.
  Each projection region leaves the linear layer of the arrays it reads (the reshaped input, the transposed weights,
  the bias as a row); reshaped back to [4,1024,1024] that is the projection of the specification. The attention
  region leaves the attention weights of the projected queries and keys, and their product with the projected
  values; the last projection region maps that context through the output weights.
-/
import proofs.«152439_j69595650064719_2_alg».proof.Proof.KernelRun
import proofs.«152439_j69595650064719_2_alg».proof.Proof.HostGlue
import proofs.«152439_j69595650064719_2_alg».proof.Proof.LinArr0
import proofs.«152439_j69595650064719_2_alg».proof.Proof.LinArr1
import proofs.«152439_j69595650064719_2_alg».proof.Proof.LinArr2
import proofs.«152439_j69595650064719_2_alg».proof.Proof.LinArr4
import proofs.«152439_j69595650064719_2_alg».proof.Proof.AttnArr
import proofs.«152439_j69595650064719_2_alg».proof.Proof.AttnBody

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The body's two entry lemmas, in the form the array-level reading takes them. -/
theorem bodyW : Cert.AttnArr.BodyW := fun x0 x1 x2 hh q k => Cert.AttnBody.out3_4_apply x0 x1 x2 hh q k
theorem bodyC : Cert.AttnArr.BodyC := fun x0 x1 x2 q hh d => Cert.AttnBody.out3_3_apply x0 x1 x2 hh q d

/-- The projected queries, as the attention region finds them. -/
theorem qp : V7 m ρ c main_v7 = Attn.proj (m ((c : Thread nD τ).loc main_arg0)) (m ((c : Thread nD τ).loc main_arg3)) (m ((c : Thread nD τ).loc main_arg4)) := by
  rw [Cert.KGlue.v7_v7 m ρ c, show W2 m ρ c (Proc.devRef .tc main_v6) = _ from W2_arr m ρ c 3, Cert.LinArr0.final (V1 m ρ) c,
    Cert.KGlue.v1_v0 m ρ c, Cert.KGlue.v1_v4 m ρ c, Cert.KGlue.v1_v5 m ρ c]
  exact Cert.KGlue.lin_layer _ _ _

/-- The projected keys. -/
theorem kp : V7 m ρ c main_v12 = Attn.proj (m ((c : Thread nD τ).loc main_arg1)) (m ((c : Thread nD τ).loc main_arg5)) (m ((c : Thread nD τ).loc main_arg6)) := by
  rw [Cert.KGlue.v7_v12 m ρ c, show W4 m ρ c (Proc.devRef .tc main_v11) = _ from W4_arr m ρ c 3, Cert.LinArr1.final (V3 m ρ) c,
    Cert.KGlue.v3_v1 m ρ c, Cert.KGlue.v3_v9 m ρ c, Cert.KGlue.v3_v10 m ρ c]
  exact Cert.KGlue.lin_layer _ _ _

/-- The projected values. -/
theorem vp : V7 m ρ c main_v17 = Attn.proj (m ((c : Thread nD τ).loc main_arg2)) (m ((c : Thread nD τ).loc main_arg7)) (m ((c : Thread nD τ).loc main_arg8)) := by
  rw [Cert.KGlue.v7_v17 m ρ c, show W6 m ρ c (Proc.devRef .tc main_v16) = _ from W6_arr m ρ c 3, Cert.LinArr2.final (V5 m ρ) c,
    Cert.KGlue.v5_v2 m ρ c, Cert.KGlue.v5_v14 m ρ c, Cert.KGlue.v5_v15 m ρ c]
  exact Cert.KGlue.lin_layer _ _ _

/-- The second result: the attention weights. -/
theorem w_val : W11 m ρ c (Proc.devRef .tc main_v18_1)
    = Attn.attnWeights (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  rw [Cert.KGlue.w11_v18_1 m ρ c, show W8 m ρ c (Proc.devRef .tc main_v18_1) = _ from W8_arr m ρ c 4,
    Cert.AttnArr.finalW (V7 m ρ) bodyW c, qp m ρ c, kp m ρ c]
  rfl

/-- The context, as the attention region leaves it. -/
theorem ctx_val : W8 m ρ c (Proc.devRef .tc main_v18_0)
    = Attn.context (Attn.attnWeights (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)))
        (Attn.proj (m ((c : Thread nD τ).loc main_arg2)) (m ((c : Thread nD τ).loc main_arg7)) (m ((c : Thread nD τ).loc main_arg8))) := by
  rw [show W8 m ρ c (Proc.devRef .tc main_v18_0) = _ from W8_arr m ρ c 3, Cert.AttnArr.finalC (V7 m ρ) bodyC c, qp m ρ c, kp m ρ c, vp m ρ c]
  rfl

/-- The first result: the output projection of the context. -/
theorem out_val : W11 m ρ c (Proc.devRef .tc main_v24)
    = Attn.attnOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  rw [Cert.KGlue.w11_v24 m ρ c, show W10 m ρ c (Proc.devRef .tc main_v23) = _ from W10_arr m ρ c 3, Cert.LinArr4.final (V9 m ρ) c,
    Cert.KGlue.v9_v19 m ρ c, Cert.KGlue.v9_v21 m ρ c, Cert.KGlue.v9_v22 m ρ c, ctx_val m ρ c]
  exact Cert.KGlue.lin_layer _ _ _

/-- Every weakly fair execution of the idealized kernel program terminates, nothing faulting, with its two results at
    the specification's functions of the arguments and the arguments unchanged. -/
theorem run : θ_run defs (onTc (τ := τ) (main (F := Ideal))) ⟨m, fun _ => 0, ρ⟩ (fun r => ∀ c : Dev nD,
      r.2.mem ((c.tc : Thread nD τ).loc main_v24)
        = Attn.attnOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))
      ∧ r.2.mem ((c.tc : Thread nD τ).loc main_v18_1)
        = Attn.attnWeights (m ((c : Thread nD τ).loc main_arg0)) (m ((c : Thread nD τ).loc main_arg1)) (m ((c : Thread nD τ).loc main_arg3))
            (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v24 (by decide))).trans (out_val m ρ c),
     (h c _ (mem_uc main_v18_1 (by decide))).trans (w_val m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c)⟩)
    (Cert.KernelIdeal.KRun.run_all (F := Ideal) m ρ)

end Cert.KernelIdeal.KValue

end
-- ==== Proof.lean ====
/-
  Multi-head attention (batch 4, sequence 1024, embedding 1024, 16 heads of 64): a kernel program of five regions — three
  projections, the attention itself on pairs of heads, the output projection — against the plain reference, over the
  extended reals.

  Both programs compute the same two functions of the eleven arguments (Proof/Spec.lean): the attention weights
  softmax_k ((Σ_d Q[b,q,64h+d] · K[b,k,64h+d]) / 8) of the projected queries and keys, and the output projection of
  their product with the projected values. The two sides differ only in how the arrays are laid out and cut into
  blocks: a sum over an axis stays a sum over that axis, so no law of arithmetic beyond re-indexing is used and the
  finiteness of the inputs is never opened. The reference's extra max(−∞, ·) on the row maximum is the identity.

  The kernel side: each region's output array is read off its run as one function of the arrays it reads
  (Proof/LinArr*.lean, Proof/AttnArr.lean over the bodies' arithmetic in Proof/LinBody*.lean, Proof/AttnBody.lean), the
  host operations between the regions are reshapes and transposes (Proof/HostGlue.lean), and the whole program's run
  names both results (Proof/KernelRun.lean, Proof/KernelValue.lean). The reference side: its generated run, read one
  operation at a time, is the same specification (Proof/RefSide.lean).
-/
import proofs.«152439_j69595650064719_2_alg».proof.Defs
import proofs.«152439_j69595650064719_2_alg».proof.Proof.Gen.Kernel
import proofs.«152439_j69595650064719_2_alg».proof.Proof.Gen.Kernel.Skeleton
import proofs.«152439_j69595650064719_2_alg».proof.Proof.Gen.Kernel.Launch
import proofs.«152439_j69595650064719_2_alg».proof.Proof.Gen.Kernel.Points
import proofs.«152439_j69595650064719_2_alg».proof.Proof.Gen.Kernel.Frame
import proofs.«152439_j69595650064719_2_alg».proof.Proof.Gen.KernelIdeal
import proofs.«152439_j69595650064719_2_alg».proof.Proof.Gen.KernelIdeal.Skeleton
import proofs.«152439_j69595650064719_2_alg».proof.Proof.Gen.KernelIdeal.Launch
import proofs.«152439_j69595650064719_2_alg».proof.Proof.Gen.KernelIdeal.Points
import proofs.«152439_j69595650064719_2_alg».proof.Proof.Gen.KernelIdeal.Frame
import proofs.«152439_j69595650064719_2_alg».proof.Proof.Gen.ReferenceIdeal
import proofs.«152439_j69595650064719_2_alg».proof.Proof.Gen.Pre_finite_inputs
import proofs.«152439_j69595650064719_2_alg».proof.Proof.Gen.ReferenceIdeal.Run
import proofs.«152439_j69595650064719_2_alg».proof.Proof.Gen.ReferenceIdeal.Read
import proofs.«152439_j69595650064719_2_alg».proof.Proof.RefSide
import proofs.«152439_j69595650064719_2_alg».proof.Proof.KernelValue
import Idealize.ShloMosaic.Adequacy
import Idealize.ShloMosaic.Init

noncomputable section

namespace Cert.Proof

open Idealize.ShloMosaic Idealize.SL.Sem

/-- The word-level kernel program runs, its arguments unchanged. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs, its arguments unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs, its arguments unchanged: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both idealized programs end with the specification's two functions of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.KValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2⟩
  · rw [Cert.ReferenceIdeal.Read.val_main_v42_eq, Cert.RefSide.out_eq, a0, a1, a2, a3, a4, a5, a6, a7, a8, a9, a10]
  · rw [Cert.ReferenceIdeal.Read.val_main_v34_eq, Cert.RefSide.weights_eq, a0, a1, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
